-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x20000 : Shape := ⟨3, ![4096, 1, 20000]⟩
abbrev S128x40000 : Shape := ⟨2, ![128, 40000]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S_ : Shape := ⟨0, ![]⟩

class Facts : Prop where
  bcast_S_S4096x1x20000 : S_.BroadcastsInDim S4096x1x20000 (![] : Fin 0 → Fin S4096x1x20000.rank)
  reducesTo_S4096x1x20000_S_d0_1_2 : S4096x1x20000.ReducesTo [0, 1, 2] S_
  h_S_ : 0 < S_.numel
  bcast_S_S128x40000 : S_.BroadcastsInDim S128x40000 (![] : Fin 0 → Fin S128x40000.rank)
  reducesTo_S128x40000_S_d0_1 : S128x40000.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S32 .f32) (main_arg8 : FVec F S16x32 .f32) (main_arg9 : FVec F S16 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S16x32 .f32 := Host.absf main_arg8
  let main_cst_14 : FVec F S_ .f32 := constant S_ .f32 0x7F800000#32
  let main_v40 : FVec F S16x32 .f32 := broadcastInDim S16x32 ![] bcast_S_S16x32 main_cst_14
  let main_v41 : IVec S16x32 1 := cmpf .olt main_v39 main_v40
  let main_c_15 : IVec S_ 1 := constantI S_ 1 1#1
  let main_v42 : IVec S_ 1 := (fun x v => Host.reduce IntOp.andi x v reducesTo_S16x32_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S64x128 .f32) (main_arg5 : FVec F S64 .f32) (main_arg6 : FVec F S32x64 .f32) (main_arg7 : FVec F S32 .f32) (main_arg8 : FVec F S16x32 .f32) (main_arg9 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1x20000 .f32) (main_arg1 : FVec F S4096x1x20000 .f32) (main_arg2 : FVec F S128x40000 .f32) (main_arg3 : FVec F S128 .f32) (main_arg4 : FVec F S64x128 .f32) (main_arg5 : FVec F S64 .f32) (main_arg6 : FVec F S32x64 .f32) (main_arg7 : FVec F S32 .f32) (main_arg8 : FVec F S16x32 .f32) (main_arg9 : FVec F S16 .f32) : IVec S_ 1 :=
  let main_v0 : FVec F S4096x1x20000 .f32 := Host.absf main_arg0
  let main_cst : FVec F S_ .f32 := constant S_ .f32 0x7F800000#32
  let main_v1 : FVec F S4096x1x20000 .f32 := broadcastInDim S4096x1x20000 ![] bcast_S_S4096x1x20000 main_cst
  let main_v2 : IVec S4096x1x20000 1 := cmpf .olt main_v0 main_v1
  let main_c : IVec S_ 1 := constantI S_ 1 1#1
  let main_v3 : IVec S_ 1 := (fun x v => Host.reduce IntOp.andi x v reducesTo_S4096x1x20000_S_d0_1_2 h_S_) main_v2 main_c
  let main_v4 : FVec F S4096x1x20000 .f32 := Host.absf main_arg1
  let main_cst_0 : FVec F S_ .f32 := constant S_ .f32 0x7F800000#32
  let main_v5 : FVec F S4096x1x20000 .f32 := broadcastInDim S4096x1x20000 ![] bcast_S_S4096x1x20000 main_cst_0
  let main_v6 : IVec S4096x1x20000 1 := cmpf .olt main_v4 main_v5
  let main_c_1 : IVec S_ 1 := constantI S_ 1 1#1
  let main_v7 : IVec S_ 1 := (fun x v => Host.reduce IntOp.andi x v reducesTo_S4096x1x20000_S_d0_1_2 h_S_) main_v6 main_c_1
  let main_v8 : IVec S_ 1 := andi main_v3 main_v7
  let main_v9 : FVec F S128x40000 .f32 := Host.absf main_arg2
  let main_cst_2 : FVec F S_ .f32 := constant S_ .f32 0x7F800000#32
  let main_v10 : FVec F S128x40000 .f32 := broadcastInDim S128x40000 ![] bcast_S_S128x40000 main_cst_2
  let main_v11 : IVec S128x40000 1 := cmpf .olt main_v9 main_v10
  let main_c_3 : IVec S_ 1 := constantI S_ 1 1#1
  let main_v12 : IVec S_ 1 := (fun x v => Host.reduce IntOp.andi x v reducesTo_S128x40000_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S4096x1x20000 : Shape := ⟨3, ![4096, 1, 20000]⟩
abbrev S128x40000 : Shape := ⟨2, ![128, 40000]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S4096x20000 : Shape := ⟨2, ![4096, 20000]⟩
abbrev S128x20000 : Shape := ⟨2, ![128, 20000]⟩
abbrev S20000x128 : Shape := ⟨2, ![20000, 128]⟩
abbrev S128x64 : Shape := ⟨2, ![128, 64]⟩
abbrev S64x32 : Shape := ⟨2, ![64, 32]⟩
abbrev S32x16 : Shape := ⟨2, ![32, 16]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S4096x16 : Shape := ⟨2, ![4096, 16]⟩
abbrev S64x20000 : Shape := ⟨2, ![64, 20000]⟩
abbrev S64x16 : Shape := ⟨2, ![64, 16]⟩
abbrev S64x1 : Shape := ⟨2, ![64, 1]⟩
abbrev S64x64 : Shape := ⟨2, ![64, 64]⟩
abbrev S4096x1x16 : Shape := ⟨3, ![4096, 1, 16]⟩

abbrev nBuf : Space → Nat
  | .hbm => 30
  | .vmem => 15
  | .smem => 0
  | _ => 0

abbrev bufTy : (tb : Table) → Fin (tcTables nBuf tb) → BufTy
  | .hbm, ⟨0, _⟩ => ⟨S4096x1x20000, .f32⟩
  | .hbm, ⟨1, _⟩ => ⟨S4096x1x20000, .f32⟩
  | .hbm, ⟨2, _⟩ => ⟨S128x40000, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S16x32, .f32⟩
  | .hbm, ⟨9, _⟩ => ⟨S16, .f32⟩
  | .hbm, ⟨10, _⟩ => ⟨S4096x20000, .f32⟩
  | .hbm, ⟨11, _⟩ => ⟨S4096x20000, .f32⟩
  | .hbm, ⟨12, _⟩ => ⟨S128x20000, .f32⟩
  | .hbm, ⟨13, _⟩ => ⟨S20000x128, .f32⟩
  | .hbm, ⟨14, _⟩ => ⟨S20000x128, .bf16⟩
  | .hbm, ⟨15, _⟩ => ⟨S128x20000, .f32⟩
  | .hbm, ⟨16, _⟩ => ⟨S20000x128, .f32⟩
  | .hbm, ⟨17, _⟩ => ⟨S20000x128, .bf16⟩
  | .hbm, ⟨18, _⟩ => ⟨S128x64, .f32⟩
  | .hbm, ⟨19, _⟩ => ⟨S128x64, .bf16⟩
  | .hbm, ⟨20, _⟩ => ⟨S64x32, .f32⟩
  | .hbm, ⟨21, _⟩ => ⟨S64x32, .bf16⟩
  | .hbm, ⟨22, _⟩ => ⟨S32x16, .f32⟩
  | .hbm, ⟨23, _⟩ => ⟨S32x16, .bf16⟩
  | .hbm, ⟨24, _⟩ => ⟨S1x128, .f32⟩
  | .hbm, ⟨25, _⟩ => ⟨S1x64, .f32⟩
  | .hbm, ⟨26, _⟩ => ⟨S1x32, .f32⟩
  | .hbm, ⟨27, _⟩ => ⟨S1x16, .f32⟩
  | .hbm, ⟨28, _⟩ => ⟨S4096x16, .f32⟩
  | .hbm, ⟨29, _⟩ => ⟨S4096x1x16, .f32⟩
  | .local _ .vmem, ⟨0, _⟩ => ⟨S64x20000, .f32⟩
  | .local _ .vmem, ⟨1, _⟩ => ⟨S64x20000, .f32⟩
  | .local _ .vmem, ⟨2, _⟩ => ⟨S64x20000, .f32⟩
  | .local _ .vmem, ⟨3, _⟩ => ⟨S64x20000, .f32⟩
  | .local _ .vmem, ⟨4, _⟩ => ⟨S20000x128, .bf16⟩
  | .local _ .vmem, ⟨5, _⟩ => ⟨S20000x128, .bf16⟩
  | .local _ .vmem, ⟨6, _⟩ => ⟨S1x128, .f32⟩
  | .local _ .vmem, ⟨7, _⟩ => ⟨S128x64, .bf16⟩
  | .local _ .vmem, ⟨8, _⟩ => ⟨S1x64, .f32⟩
  | .local _ .vmem, ⟨9, _⟩ => ⟨S64x32, .bf16⟩
  | .local _ .vmem, ⟨10, _⟩ => ⟨S1x32, .f32⟩
  | .local _ .vmem, ⟨11, _⟩ => ⟨S32x16, .bf16⟩
  | .local _ .vmem, ⟨12, _⟩ => ⟨S1x16, .f32⟩
  | .local _ .vmem, ⟨13, _⟩ => ⟨S64x16, .f32⟩
  | .local _ .vmem, ⟨14, _⟩ => ⟨S64x16, .f32⟩
  | _, _ => ⟨S4096x1x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4096x1x20000_S4096x20000 : S4096x1x20000.ShapeCasts S4096x20000
  slices_S128x40000_S128x20000_0_0 : S128x40000.Slices ![0, 0] S128x20000
  transposes_S128x20000_S20000x128_1_0 : S128x20000.Transposes [1, 0] S20000x128
  bitsLt_bf16_f32 : FTy.bits .bf16 < FTy.bits .f32
  slices_S128x40000_S128x20000_0_20000 : S128x40000.Slices ![0, 20000] S128x20000
  transposes_S64x128_S128x64_1_0 : S64x128.Transposes [1, 0] S128x64
  transposes_S32x64_S64x32_1_0 : S32x64.Transposes [1, 0] S64x32
  transposes_S16x32_S32x16_1_0 : S16x32.Transposes [1, 0] S32x16
  shapeCasts_S128_S1x128 : S128.ShapeCasts S1x128
  shapeCasts_S64_S1x64 : S64.ShapeCasts S1x64
  shapeCasts_S32_S1x32 : S32.ShapeCasts S1x32
  shapeCasts_S16_S1x16 : S16.ShapeCasts S1x16
  inb_S64x20000_S64x20000_0_0 : ∀ a, (![0, 0] : Fin 2 → Nat) a + S64x20000.size a ≤ S64x20000.size a
  h_S64x20000 : 0 < S64x20000.numel
  shapeCasts_S64x20000_S64x20000 : S64x20000.ShapeCasts S64x20000
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  reduces_S64x64_S64 : S64x64.Reduces [1] S64
  broadcasts_S64x1_S64x64 : S64x1.Broadcasts S64x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  reduces_S64x32_S64 : S64x32.Reduces [1] S64
  broadcasts_S64x1_S64x32 : S64x1.Broadcasts S64x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  shapeCasts_S4096x16_S4096x1x16 : S4096x16.ShapeCasts S4096x1x16
  dot_S64x20000_S20000x128_S64x128_1_0_0_1_n_n_wf : DotDims.WF S64x20000 S20000x128 S64x128 [1] [0] [0] [1] [] []
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x20000.size a ≤ S4096x20000.size a
  hwx0_0 : ∀ i : grid0.Coords, EltTy.bits .f32 = 32 ∨ (Rect.block (s := S4096x20000) S64x20000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x20000.size a ≤ S4096x20000.size a
  hwx0_1 : ∀ i : grid0.Coords, EltTy.bits .f32 = 32 ∨ (Rect.block (s := S4096x20000) S64x20000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20000x128.size a ≤ S20000x128.size a
  hwx0_2 : ∀ i : grid0.Coords, EltTy.bits .bf16 = 32 ∨ (Rect.block (s := S20000x128) S20000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20000x128.size a ≤ S20000x128.size a
  hwx0_3 : ∀ i : grid0.Coords, EltTy.bits .bf16 = 32 ∨ (Rect.block (s := S20000x128) S20000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x16.size a ≤ S32x16.size a
  hwx0_9 : ∀ i : grid0.Coords, EltTy.bits .bf16 = 32 ∨ (Rect.block (s := S32x16) S32x16.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x16.size a ≤ S4096x16.size a
  hwx0_11 : ∀ i : grid0.Coords, EltTy.bits .f32 = 32 ∨ (Rect.block (s := S4096x16) S64x16.size (cc0_transform_11 i) (hinb0_11 i)).WholeWords (EltTy.packing .f32)

variable [Facts₀]

def dot_S64x20000_S20000x128_S64x128_1_0_0_1_n_n : DotDims S64x20000 S20000x128 S64x128 where
  lhsContracting := [1]
  rhsContracting := [0]
  lhsNonContracting := [0]
  rhsNonContracting := [1]
  lhsBatch := []
  rhsBatch := []
  wf := dot_S64x20000_S20000x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf

abbrev win0_0 : Pipeline.Window sig grid0 :=
  Pipeline.Window.ofSpec (Memref.whole main_v0) S64x20000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x20000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S20000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S20000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S32x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S64x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1x20000 : Shape := ⟨3, ![4096, 1, 20000]⟩
abbrev S128x40000 : Shape := ⟨2, ![128, 40000]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S4096x1x40000 : Shape := ⟨3, ![4096, 1, 40000]⟩
abbrev S4096x1x128 : Shape := ⟨3, ![4096, 1, 128]⟩
abbrev S1x1x128 : Shape := ⟨3, ![1, 1, 128]⟩
abbrev S_ : Shape := ⟨0, ![]⟩
abbrev S4096x1 : Shape := ⟨2, ![4096, 1]⟩
abbrev S4096x1x1 : Shape := ⟨3, ![4096, 1, 1]⟩
abbrev S4096x1x64 : Shape := ⟨3, ![4096, 1, 64]⟩
abbrev S1x1x64 : Shape := ⟨3, ![1, 1, 64]⟩
abbrev S4096x1x32 : Shape := ⟨3, ![4096, 1, 32]⟩
abbrev S1x1x32 : Shape := ⟨3, ![1, 1, 32]⟩
abbrev S4096x1x16 : Shape := ⟨3, ![4096, 1, 16]⟩
abbrev S1x1x16 : Shape := ⟨3, ![1, 1, 16]⟩

abbrev nBuf : Space → Nat
  | .hbm => 117
  | .vmem => 0
  | .smem => 0
  | _ => 0

abbrev bufTy : (tb : Table) → Fin (tcTables nBuf tb) → BufTy
  | .hbm, ⟨0, _⟩ => ⟨S4096x1x20000, .f32⟩
  | .hbm, ⟨1, _⟩ => ⟨S4096x1x20000, .f32⟩
  | .hbm, ⟨2, _⟩ => ⟨S128x40000, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S16x32, .f32⟩
  | .hbm, ⟨9, _⟩ => ⟨S16, .f32⟩
  | .hbm, ⟨10, _⟩ => ⟨S4096x1x40000, .f32⟩
  | .hbm, ⟨11, _⟩ => ⟨S4096x1x128, .f32⟩
  | .hbm, ⟨12, _⟩ => ⟨S1x1x128, .f32⟩
  | .hbm, ⟨13, _⟩ => ⟨S4096x1x128, .f32⟩
  | .hbm, ⟨14, _⟩ => ⟨S4096x1x128, .f32⟩
  | .hbm, ⟨15, _⟩ => ⟨S_, .f32⟩
  | .hbm, ⟨16, _⟩ => ⟨S4096x1, .f32⟩
  | .hbm, ⟨17, _⟩ => ⟨S4096x1x1, .f32⟩
  | .hbm, ⟨18, _⟩ => ⟨S_, .f32⟩
  | .hbm, ⟨19, _⟩ => ⟨S4096x1x1, .f32⟩
  | .hbm, ⟨20, _⟩ => ⟨S4096x1x1, .f32⟩
  | .hbm, ⟨21, _⟩ => ⟨S4096x1x128, .f32⟩
  | .hbm, ⟨22, _⟩ => ⟨S4096x1x128, .f32⟩
  | .hbm, ⟨23, _⟩ => ⟨S4096x1x128, .f32⟩
  | .hbm, ⟨24, _⟩ => ⟨S_, .f32⟩
  | .hbm, ⟨25, _⟩ => ⟨S4096x1, .f32⟩
  | .hbm, ⟨26, _⟩ => ⟨S4096x1x1, .f32⟩
  | .hbm, ⟨27, _⟩ => ⟨S_, .f32⟩
  | .hbm, ⟨28, _⟩ => ⟨S4096x1x1, .f32⟩
  | .hbm, ⟨29, _⟩ => ⟨S4096x1x1, .f32⟩
  | .hbm, ⟨30, _⟩ => ⟨S4096x1x128, .f32⟩
  | .hbm, ⟨31, _⟩ => ⟨S4096x1x128, .f32⟩
  | .hbm, ⟨32, _⟩ => ⟨S_, .f32⟩
  | .hbm, ⟨33, _⟩ => ⟨S4096x1x1, .f32⟩
  | .hbm, ⟨34, _⟩ => ⟨S4096x1x1, .f32⟩
  | .hbm, ⟨35, _⟩ => ⟨S4096x1x1, .f32⟩
  | .hbm, ⟨36, _⟩ => ⟨S4096x1x128, .f32⟩
  | .hbm, ⟨37, _⟩ => ⟨S4096x1x128, .f32⟩
  | .hbm, ⟨38, _⟩ => ⟨S_, .f32⟩
  | .hbm, ⟨39, _⟩ => ⟨S4096x1x128, .f32⟩
  | .hbm, ⟨40, _⟩ => ⟨S4096x1x128, .i1⟩
  | .hbm, ⟨41, _⟩ => ⟨S_, .f32⟩
  | .hbm, ⟨42, _⟩ => ⟨S4096x1x128, .f32⟩
  | .hbm, ⟨43, _⟩ => ⟨S4096x1x128, .f32⟩
  | .hbm, ⟨44, _⟩ => ⟨S4096x1x128, .f32⟩
  | .hbm, ⟨45, _⟩ => ⟨S4096x1x64, .f32⟩
  | .hbm, ⟨46, _⟩ => ⟨S1x1x64, .f32⟩
  | .hbm, ⟨47, _⟩ => ⟨S4096x1x64, .f32⟩
  | .hbm, ⟨48, _⟩ => ⟨S4096x1x64, .f32⟩
  | .hbm, ⟨49, _⟩ => ⟨S_, .f32⟩
  | .hbm, ⟨50, _⟩ => ⟨S4096x1, .f32⟩
  | .hbm, ⟨51, _⟩ => ⟨S4096x1x1, .f32⟩
  | .hbm, ⟨52, _⟩ => ⟨S_, .f32⟩
  | .hbm, ⟨53, _⟩ => ⟨S4096x1x1, .f32⟩
  | .hbm, ⟨54, _⟩ => ⟨S4096x1x1, .f32⟩
  | .hbm, ⟨55, _⟩ => ⟨S4096x1x64, .f32⟩
  | .hbm, ⟨56, _⟩ => ⟨S4096x1x64, .f32⟩
  | .hbm, ⟨57, _⟩ => ⟨S4096x1x64, .f32⟩
  | .hbm, ⟨58, _⟩ => ⟨S_, .f32⟩
  | .hbm, ⟨59, _⟩ => ⟨S4096x1, .f32⟩
  | .hbm, ⟨60, _⟩ => ⟨S4096x1x1, .f32⟩
  | .hbm, ⟨61, _⟩ => ⟨S_, .f32⟩
  | .hbm, ⟨62, _⟩ => ⟨S4096x1x1, .f32⟩
  | .hbm, ⟨63, _⟩ => ⟨S4096x1x1, .f32⟩
  | .hbm, ⟨64, _⟩ => ⟨S4096x1x64, .f32⟩
  | .hbm, ⟨65, _⟩ => ⟨S4096x1x64, .f32⟩
  | .hbm, ⟨66, _⟩ => ⟨S_, .f32⟩
  | .hbm, ⟨67, _⟩ => ⟨S4096x1x1, .f32⟩
  | .hbm, ⟨68, _⟩ => ⟨S4096x1x1, .f32⟩
  | .hbm, ⟨69, _⟩ => ⟨S4096x1x1, .f32⟩
  | .hbm, ⟨70, _⟩ => ⟨S4096x1x64, .f32⟩
  | .hbm, ⟨71, _⟩ => ⟨S4096x1x64, .f32⟩
  | .hbm, ⟨72, _⟩ => ⟨S_, .f32⟩
  | .hbm, ⟨73, _⟩ => ⟨S4096x1x64, .f32⟩
  | .hbm, ⟨74, _⟩ => ⟨S4096x1x64, .i1⟩
  | .hbm, ⟨75, _⟩ => ⟨S_, .f32⟩
  | .hbm, ⟨76, _⟩ => ⟨S4096x1x64, .f32⟩
  | .hbm, ⟨77, _⟩ => ⟨S4096x1x64, .f32⟩
  | .hbm, ⟨78, _⟩ => ⟨S4096x1x64, .f32⟩
  | .hbm, ⟨79, _⟩ => ⟨S4096x1x32, .f32⟩
  | .hbm, ⟨80, _⟩ => ⟨S1x1x32, .f32⟩
  | .hbm, ⟨81, _⟩ => ⟨S4096x1x32, .f32⟩
  | .hbm, ⟨82, _⟩ => ⟨S4096x1x32, .f32⟩
  | .hbm, ⟨83, _⟩ => ⟨S_, .f32⟩
  | .hbm, ⟨84, _⟩ => ⟨S4096x1, .f32⟩
  | .hbm, ⟨85, _⟩ => ⟨S4096x1x1, .f32⟩
  | .hbm, ⟨86, _⟩ => ⟨S_, .f32⟩
  | .hbm, ⟨87, _⟩ => ⟨S4096x1x1, .f32⟩
  | .hbm, ⟨88, _⟩ => ⟨S4096x1x1, .f32⟩
  | .hbm, ⟨89, _⟩ => ⟨S4096x1x32, .f32⟩
  | .hbm, ⟨90, _⟩ => ⟨S4096x1x32, .f32⟩
  | .hbm, ⟨91, _⟩ => ⟨S4096x1x32, .f32⟩
  | .hbm, ⟨92, _⟩ => ⟨S_, .f32⟩
  | .hbm, ⟨93, _⟩ => ⟨S4096x1, .f32⟩
  | .hbm, ⟨94, _⟩ => ⟨S4096x1x1, .f32⟩
  | .hbm, ⟨95, _⟩ => ⟨S_, .f32⟩
  | .hbm, ⟨96, _⟩ => ⟨S4096x1x1, .f32⟩
  | .hbm, ⟨97, _⟩ => ⟨S4096x1x1, .f32⟩
  | .hbm, ⟨98, _⟩ => ⟨S4096x1x32, .f32⟩
  | .hbm, ⟨99, _⟩ => ⟨S4096x1x32, .f32⟩
  | .hbm, ⟨100, _⟩ => ⟨S_, .f32⟩
  | .hbm, ⟨101, _⟩ => ⟨S4096x1x1, .f32⟩
  | .hbm, ⟨102, _⟩ => ⟨S4096x1x1, .f32⟩
  | .hbm, ⟨103, _⟩ => ⟨S4096x1x1, .f32⟩
  | .hbm, ⟨104, _⟩ => ⟨S4096x1x32, .f32⟩
  | .hbm, ⟨105, _⟩ => ⟨S4096x1x32, .f32⟩
  | .hbm, ⟨106, _⟩ => ⟨S_, .f32⟩
  | .hbm, ⟨107, _⟩ => ⟨S4096x1x32, .f32⟩
  | .hbm, ⟨108, _⟩ => ⟨S4096x1x32, .i1⟩
  | .hbm, ⟨109, _⟩ => ⟨S_, .f32⟩
  | .hbm, ⟨110, _⟩ => ⟨S4096x1x32, .f32⟩
  | .hbm, ⟨111, _⟩ => ⟨S4096x1x32, .f32⟩
  | .hbm, ⟨112, _⟩ => ⟨S4096x1x32, .f32⟩
  | .hbm, ⟨113, _⟩ => ⟨S4096x1x16, .f32⟩
  | .hbm, ⟨114, _⟩ => ⟨S1x1x16, .f32⟩
  | .hbm, ⟨115, _⟩ => ⟨S4096x1x16, .f32⟩
  | .hbm, ⟨116, _⟩ => ⟨S4096x1x16, .f32⟩
  | _, _ => ⟨S4096x1x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_18 : Ref sig .tc := ⟨.hbm, 106, rfl⟩
abbrev main_v77 : Ref sig .tc := ⟨.hbm, 107, rfl⟩
abbrev main_v78 : Ref sig .tc := ⟨.hbm, 108, rfl⟩
abbrev main_cst_19 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  concatenates_S4096x1x20000_S4096x1x20000_S4096x1x40000_d2 : Shape.Concatenates [S4096x1x20000, S4096x1x20000] S4096x1x40000 2
  bcast_S128_S1x1x128_2 : S128.BroadcastsInDim S1x1x128 (![2] : Fin 1 → Fin S1x1x128.rank)
  bcast_S1x1x128_S4096x1x128_0_1_2 : S1x1x128.BroadcastsInDim S4096x1x128 (![0, 1, 2] : Fin 3 → Fin S4096x1x128.rank)
  reducesTo_S4096x1x128_S4096x1_d2 : S4096x1x128.ReducesTo [2] S4096x1
  h_S_ : 0 < S_.numel
  bcast_S4096x1_S4096x1x1_0_1 : S4096x1.BroadcastsInDim S4096x1x1 (![0, 1] : Fin 2 → Fin S4096x1x1.rank)
  bcast_S_S4096x1x1 : S_.BroadcastsInDim S4096x1x1 (![] : Fin 0 → Fin S4096x1x1.rank)
  bcast_S4096x1x1_S4096x1x128_0_1_2 : S4096x1x1.BroadcastsInDim S4096x1x128 (![0, 1, 2] : Fin 3 → Fin S4096x1x128.rank)
  bcast_S_S4096x1x128 : S_.BroadcastsInDim S4096x1x128 (![] : Fin 0 → Fin S4096x1x128.rank)
  bcast_S64_S1x1x64_2 : S64.BroadcastsInDim S1x1x64 (![2] : Fin 1 → Fin S1x1x64.rank)
  bcast_S1x1x64_S4096x1x64_0_1_2 : S1x1x64.BroadcastsInDim S4096x1x64 (![0, 1, 2] : Fin 3 → Fin S4096x1x64.rank)
  reducesTo_S4096x1x64_S4096x1_d2 : S4096x1x64.ReducesTo [2] S4096x1
  bcast_S4096x1x1_S4096x1x64_0_1_2 : S4096x1x1.BroadcastsInDim S4096x1x64 (![0, 1, 2] : Fin 3 → Fin S4096x1x64.rank)
  bcast_S_S4096x1x64 : S_.BroadcastsInDim S4096x1x64 (![] : Fin 0 → Fin S4096x1x64.rank)
  bcast_S32_S1x1x32_2 : S32.BroadcastsInDim S1x1x32 (![2] : Fin 1 → Fin S1x1x32.rank)
  bcast_S1x1x32_S4096x1x32_0_1_2 : S1x1x32.BroadcastsInDim S4096x1x32 (![0, 1, 2] : Fin 3 → Fin S4096x1x32.rank)
  reducesTo_S4096x1x32_S4096x1_d2 : S4096x1x32.ReducesTo [2] S4096x1
  bcast_S4096x1x1_S4096x1x32_0_1_2 : S4096x1x1.BroadcastsInDim S4096x1x32 (![0, 1, 2] : Fin 3 → Fin S4096x1x32.rank)
  bcast_S_S4096x1x32 : S_.BroadcastsInDim S4096x1x32 (![] : Fin 0 → Fin S4096x1x32.rank)
  bcast_S16_S1x1x16_2 : S16.BroadcastsInDim S1x1x16 (![2] : Fin 1 → Fin S1x1x16.rank)
  bcast_S1x1x16_S4096x1x16_0_1_2 : S1x1x16.BroadcastsInDim S4096x1x16 (![0, 1, 2] : Fin 3 → Fin S4096x1x16.rank)
  dot_S4096x1x40000_S128x40000_S4096x1x128_2_1_01_0_n_n_wf : DotDims.WF S4096x1x40000 S128x40000 S4096x1x128 [2] [1] [0, 1] [0] [] []
  dot_S4096x1x128_S64x128_S4096x1x64_2_1_01_0_n_n_wf : DotDims.WF S4096x1x128 S64x128 S4096x1x64 [2] [1] [0, 1] [0] [] []
  dot_S4096x1x64_S32x64_S4096x1x32_2_1_01_0_n_n_wf : DotDims.WF S4096x1x64 S32x64 S4096x1x32 [2] [1] [0, 1] [0] [] []
  dot_S4096x1x32_S16x32_S4096x1x16_2_1_01_0_n_n_wf : DotDims.WF S4096x1x32 S16x32 S4096x1x16 [2] [1] [0, 1] [0] [] []

variable [Facts₀]

def dot_S4096x1x40000_S128x40000_S4096x1x128_2_1_01_0_n_n : DotDims S4096x1x40000 S128x40000 S4096x1x128 where
  lhsContracting := [2]
  rhsContracting := [1]
  lhsNonContracting := [0, 1]
  rhsNonContracting := [0]
  lhsBatch := []
  rhsBatch := []
  wf := dot_S4096x1x40000_S128x40000_S4096x1x128_2_1_01_0_n_n_wf
def dot_S4096x1x128_S64x128_S4096x1x64_2_1_01_0_n_n : DotDims S4096x1x128 S64x128 S4096x1x64 where
  lhsContracting := [2]
  rhsContracting := [1]
  lhsNonContracting := [0, 1]
  rhsNonContracting := [0]
  lhsBatch := []
  rhsBatch := []
  wf := dot_S4096x1x128_S64x128_S4096x1x64_2_1_01_0_n_n_wf
def dot_S4096x1x64_S32x64_S4096x1x32_2_1_01_0_n_n : DotDims S4096x1x64 S32x64 S4096x1x32 where
  lhsContracting := [2]
  rhsContracting := [1]
  lhsNonContracting := [0, 1]
  rhsNonContracting := [0]
  lhsBatch := []
  rhsBatch := []
  wf := dot_S4096x1x64_S32x64_S4096x1x32_2_1_01_0_n_n_wf
def dot_S4096x1x32_S16x32_S4096x1x16_2_1_01_0_n_n : DotDims S4096x1x32 S16x32 S4096x1x16 where
  lhsContracting := [2]
  rhsContracting := [1]
  lhsNonContracting := [0, 1]
  rhsNonContracting := [0]
  lhsBatch := []
  rhsBatch := []
  wf := dot_S4096x1x32_S16x32_S4096x1x16_2_1_01_0_n_n_wf

class Facts : Prop extends Facts₀ where

variable [Facts]
-- ==== Proof.MlpRows.lean ====
/-
  One row of the four-layer perceptron, as functions on the extended reals.

  A row `x` of `K` features goes through an affine map `x ↦ x Wᵀ + b` (entry `o` is `∑ₖ xₖ · W o k + b o`); the first three
  layers then normalise the row — subtract its mean, divide by the square root of its (biased) variance plus `ε`, both mean and
  variance being sums over the row divided by its length — and apply the leaky rectifier `y ↦ y` if `y ≥ 0`, else `slope · y`.
  Every operation is the exact one on the extended reals (`Ideal.div`, `Ideal.rsqrt`, the comparison `≥` as the
  one-bit word it yields), so the definitions here are what both programs compute on a row, entry by entry.

  The first layer's input row is two rows of 20000 features side by side; its affine map is therefore a sum over 40000
  terms in one program and the sum of two sums over 20000 terms in the other. `sum_split` is the law that joins them: a finite
  sum over `Fin n`, `n = a + b`, is the sum over the first `a` indices plus the sum over the last `b`. It needs only that
  addition is commutative and associative, which holds on the extended reals with no finiteness assumption.
-/
import Idealize.ShloMosaic.PureOps.Ideal
import Idealize.ShloMosaic.PureOps.Ideal.Laws
import Mathlib.Algebra.BigOperators.Fin

noncomputable section

namespace Cert.MlpRows

open Idealize.ShloMosaic

/-- The affine map on a row: entry `o` of `x Wᵀ + b`. -/
def affine {K N : Nat} (x : Fin K → EReal) (W : Fin N → Fin K → EReal) (b : Fin N → EReal) : Fin N → EReal :=
  fun o => (∑ k : Fin K, x k * W o k) + b o

/-- The mean of a row: its sum divided by `n` (the programs pass the row's length as a float). -/
def mean {N : Nat} (n : EReal) (h : Fin N → EReal) : EReal := Ideal.div (∑ k : Fin N, h k) n

/-- The biased variance of a row: the sum of the squared deviations from the mean, divided by `n`. -/
def variance {N : Nat} (n : EReal) (h : Fin N → EReal) : EReal :=
  Ideal.div (∑ k : Fin N, (h k - mean n h) * (h k - mean n h)) n

/-- Entry `j` of the normalised row: the deviation from the mean times the reciprocal square root of variance plus `ε`. -/
def normed {N : Nat} (n eps : EReal) (h : Fin N → EReal) (j : Fin N) : EReal :=
  (h j - mean n h) * Ideal.rsqrt (variance n h + eps)

/-- The leaky rectifier: `y` where `y ≥ zero`, `slope · y` elsewhere (the comparison is the programs' ordered `≥`). -/
def leaky (zero slope y : EReal) : EReal :=
  Scalar.select (FloatOps.cmpf (F := Ideal) (φ := .f32) .oge y zero) y (slope * y)

/-- Normalise a row, then rectify it. -/
def normLeaky {N : Nat} (n eps zero slope : EReal) (h : Fin N → EReal) : Fin N → EReal :=
  fun j => leaky zero slope (normed n eps h j)

/-- A finite sum over `Fin n` with `n = a + b` is the sum over the first `a` indices plus the sum over the last `b`. -/
theorem sum_split {M : Type} [AddCommMonoid M] {a b n : Nat} (hn : a + b = n) (f : Fin n → M) :
    ∑ k : Fin n, f k
      = (∑ k : Fin a, f (Fin.cast hn (Fin.castAdd b k))) + ∑ k : Fin b, f (Fin.cast hn (Fin.natAdd a k)) := by
  subst hn
  exact Fin.sum_univ_add f

end Cert.MlpRows

end
-- ==== Proof.MlpSpec.lean ====
/-
  The whole network on one row, and the result array as one function of the argument arrays.

  `rowOut` takes the two halves `xa`, `xb` of a row's 40000 features, the first layer's weights split the same way
  (`wa o k` multiplies `xa k`, `wb o k` multiplies `xb k`), and the remaining weights and biases, and returns the row's 16
  outputs: the first pre-activation is `(∑ₖ xaₖ · wa o k + ∑ₖ xbₖ · wb o k) + b1 o`; each of the three hidden layers is
  normalised over the row (lengths 128, 64, 32, passed as the floats the programs divide by) and rectified; the next
  layer is affine in the result. Both programs compute this function of a row; they differ in how the rows and the weights
  are laid out in memory, which is what the accessors abstract.

  `G` is the result array: entry `(r, 0, o)` is `rowOut` of row `r` of the two inputs and of the weight matrices read as
  `W o k`, the first one at columns `k` and `20000 + k`.
-/
import proofs.«107008_j48301202211328_2_alg».proof.Proof.MlpRows
import Idealize.ShloMosaic.Lib.ValueIdx

noncomputable section

namespace Cert.MlpSpec

open Idealize.ShloMosaic Idealize.ShloMosaic.ValueIdx Cert.MlpRows

/-- The floats both programs use: the row lengths they divide by, the variance's `ε`, zero, and the rectifier's slope. -/
abbrev c128 : EReal := Ideal.ofBits .f32 0x43000000#32
abbrev c64 : EReal := Ideal.ofBits .f32 0x42800000#32
abbrev c32 : EReal := Ideal.ofBits .f32 0x42000000#32
abbrev eps : EReal := Ideal.ofBits .f32 0x3727C5AC#32
abbrev zero : EReal := Ideal.ofBits .f32 0x00000000#32
abbrev slope : EReal := Ideal.ofBits .f32 0x3E4CCCCD#32

/-- The first layer's pre-activation on a row given as two halves. -/
def pre1 (xa xb : Fin 20000 → EReal) (wa wb : Fin 128 → Fin 20000 → EReal) (b1 : Fin 128 → EReal) : Fin 128 → EReal :=
  fun o => ((∑ k : Fin 20000, xa k * wa o k) + ∑ k : Fin 20000, xb k * wb o k) + b1 o

/-- The third hidden layer's pre-activation of a row (both programs name it: its sum is the next mean). -/
def pre3 (xa xb : Fin 20000 → EReal) (wa wb : Fin 128 → Fin 20000 → EReal) (b1 : Fin 128 → EReal)
    (w2 : Fin 64 → Fin 128 → EReal) (b2 : Fin 64 → EReal) (w3 : Fin 32 → Fin 64 → EReal) (b3 : Fin 32 → EReal) : Fin 32 → EReal :=
  affine (normLeaky c64 eps zero slope (affine (normLeaky c128 eps zero slope (pre1 xa xb wa wb b1)) w2 b2)) w3 b3

/-- The network on one row. -/
def rowOut (xa xb : Fin 20000 → EReal) (wa wb : Fin 128 → Fin 20000 → EReal) (b1 : Fin 128 → EReal)
    (w2 : Fin 64 → Fin 128 → EReal) (b2 : Fin 64 → EReal) (w3 : Fin 32 → Fin 64 → EReal) (b3 : Fin 32 → EReal)
    (w4 : Fin 16 → Fin 32 → EReal) (b4 : Fin 16 → EReal) : Fin 16 → EReal :=
  affine (normLeaky c32 eps zero slope (pre3 xa xb wa wb b1 w2 b2 w3 b3)) w4 b4

/-- The ten argument arrays, as functions on their indices. -/
structure Args where
  x1 : (⟨3, ![4096, 1, 20000]⟩ : Shape).Idx → EReal
  x2 : (⟨3, ![4096, 1, 20000]⟩ : Shape).Idx → EReal
  W1 : (⟨2, ![128, 40000]⟩ : Shape).Idx → EReal
  b1 : (⟨1, ![128]⟩ : Shape).Idx → EReal
  W2 : (⟨2, ![64, 128]⟩ : Shape).Idx → EReal
  b2 : (⟨1, ![64]⟩ : Shape).Idx → EReal
  W3 : (⟨2, ![32, 64]⟩ : Shape).Idx → EReal
  b3 : (⟨1, ![32]⟩ : Shape).Idx → EReal
  W4 : (⟨2, ![16, 32]⟩ : Shape).Idx → EReal
  b4 : (⟨1, ![16]⟩ : Shape).Idx → EReal

/-- Row `r`'s outputs from the argument arrays. -/
def outRow (p : Args) (r : Fin 4096) : Fin 16 → EReal :=
  rowOut (fun k => p.x1 (ix3 r (0 : Fin 1) k)) (fun k => p.x2 (ix3 r (0 : Fin 1) k))
    (fun o k => p.W1 (ix2 o (⟨k.val, by omega⟩ : Fin 40000))) (fun o k => p.W1 (ix2 o (⟨20000 + k.val, by omega⟩ : Fin 40000)))
    (fun o => p.b1 (ix1 o)) (fun o k => p.W2 (ix2 o k)) (fun o => p.b2 (ix1 o)) (fun o k => p.W3 (ix2 o k)) (fun o => p.b3 (ix1 o))
    (fun o k => p.W4 (ix2 o k)) (fun o => p.b4 (ix1 o))

/-- The result array. -/
def G (p : Args) : (⟨3, ![4096, 1, 16]⟩ : Shape).Idx → EReal :=
  fun i => outRow p ⟨(i 0).val, (i 0).isLt⟩ ⟨(i 2).val, (i 2).isLt⟩

theorem G_ix3 (p : Args) (r : Fin 4096) (o : Fin 16) : G p (ix3 r (0 : Fin 1) o) = outRow p r o := rfl

end Cert.MlpSpec

end
-- ==== Proof.RefRows.lean ====
/-
  The reference program is the specification: its result array is `MlpSpec.G` of its ten arguments.

  The program computes, stage by stage, whole arrays of shape (4096, 1, n). Read at an index `(r, 0, j)`, every stage
  depends only on row `r` of the stage before it: a matrix product's entry is the sum over the contracted column, a bias
  is broadcast along the rows, a mean and a variance are sums over the row's columns divided by the row's length and
  broadcast back along the row, and the rectifier is a pointwise choice. So each layer is two facts about a row:

    • `affineN`: the pre-activation at `(r, 0, o)` is `MlpRows.affine` of the previous layer's row (for the first layer,
      `MlpSpec.pre1`: the contracted axis is the two inputs side by side, and the sum over its 40000 columns is the sum
      over the first 20000, where the joined row reads the first input, plus the sum over the last 20000, where it reads
      the second — `MlpRows.sum_split`, the only law used beyond unfolding);
    • `layerNormN`: the rectified, normalised value at `(r, 0, j)` is `MlpRows.normLeaky` of the row of pre-activations
      (through `meanN` and `varN`, the two row statistics, which do not depend on the column they are broadcast to).

  The sums' initial value is the float zero, which is the extended real `0`. `result_eq` composes the seven facts from
  the last layer inwards; nothing is assumed finite.
-/
import proofs.«107008_j48301202211328_2_alg».proof.Proof.RefRead
import proofs.«107008_j48301202211328_2_alg».proof.Proof.MlpSpec
import Idealize.ShloMosaic.PureOps.Ideal.Laws
import Idealize.ShloMosaic.Lib.ValueIdx
import Idealize.ShloMosaic.Lib.Pipeline.Value

noncomputable section

namespace Cert.ReferenceIdeal.Rows

open Cert.ReferenceIdeal Cert.ReferenceIdeal.ReadP Idealize.ShloMosaic Idealize.ShloMosaic.ValueIdx Cert.MlpRows Cert.MlpSpec

section Rows

variable (x0 x1 : (⟨S4096x1x20000, .f32⟩ : BufTy).Contents (Elt Ideal)) (x2 : (⟨S128x40000, .f32⟩ : BufTy).Contents (Elt Ideal)) (x3 : (⟨S128, .f32⟩ : BufTy).Contents (Elt Ideal)) (x4 : (⟨S64x128, .f32⟩ : BufTy).Contents (Elt Ideal)) (x5 : (⟨S64, .f32⟩ : BufTy).Contents (Elt Ideal)) (x6 : (⟨S32x64, .f32⟩ : BufTy).Contents (Elt Ideal)) (x7 : (⟨S32, .f32⟩ : BufTy).Contents (Elt Ideal)) (x8 : (⟨S16x32, .f32⟩ : BufTy).Contents (Elt Ideal)) (x9 : (⟨S16, .f32⟩ : BufTy).Contents (Elt Ideal))

/-- The first layer's pre-activation on row `r`: the sum over the 40000 joined features splits into the two halves'
    sums, the joined row reading the first input below column 20000 and the second one from there on. -/
theorem affine1 (r : Fin 4096) (o : Fin 128) :
    val_main_v4 (F := Ideal) x0 x1 x2 x3 (ix3 r (0 : Fin 1) o)
      = pre1 (fun k => x0 (ix3 r (0 : Fin 1) k)) (fun k => x1 (ix3 r (0 : Fin 1) k))
          (fun o k => x2 (ix2 o (⟨k.val, by omega⟩ : Fin 40000))) (fun o k => x2 (ix2 o (⟨20000 + k.val, by omega⟩ : Fin 40000)))
          (fun o => x3 (ix1 o)) o := by
  rw [val_main_v4_apply, val_main_v1_apply, val_main_v3_apply, val_main_v2_apply]
  have hb : idx_main_v2 (idx_main_v3 (ix3 r (0 : Fin 1) o)) = ix1 o := by
    funext d; match d with | ⟨0, _⟩ => rfl
  rw [hb, sum_split (a := 20000) (b := 20000) rfl]
  have hL : ∀ k : Fin 20000,
      val_main_v0 (F := Ideal) x0 x1 (lidx_main_v1 (ix3 r (0 : Fin 1) o) (Fin.cast rfl (Fin.castAdd 20000 k)))
        = x0 (ix3 r (0 : Fin 1) k) := fun k => by
    unfold val_main_v0
    exact concatenate_pair_apply_left (t := S4096x1x40000) (s₁ := S4096x1x20000) (s₂ := S4096x1x20000) 2 x0 x1
      Gen.concatenates_S4096x1x20000_S4096x1x20000_S4096x1x40000_d2
      (lidx_main_v1 (ix3 r (0 : Fin 1) o) (Fin.cast rfl (Fin.castAdd 20000 k))) rfl (ix3 r (0 : Fin 1) k)
      (fun b => match b with | ⟨0, _⟩ => rfl | ⟨1, _⟩ => rfl | ⟨2, _⟩ => rfl)
  have hR : ∀ k : Fin 20000,
      val_main_v0 (F := Ideal) x0 x1 (lidx_main_v1 (ix3 r (0 : Fin 1) o) (Fin.cast rfl (Fin.natAdd 20000 k)))
        = x1 (ix3 r (0 : Fin 1) k) := fun k => by
    unfold val_main_v0
    exact concatenate_pair_apply_right (t := S4096x1x40000) (s₁ := S4096x1x20000) (s₂ := S4096x1x20000) 2 x0 x1
      Gen.concatenates_S4096x1x20000_S4096x1x20000_S4096x1x40000_d2
      (lidx_main_v1 (ix3 r (0 : Fin 1) o) (Fin.cast rfl (Fin.natAdd 20000 k))) rfl rfl (ix3 r (0 : Fin 1) k)
      (fun b => match b with | ⟨0, _⟩ => fun _ => rfl | ⟨1, _⟩ => fun _ => rfl | ⟨2, _⟩ => fun h => absurd rfl h)
      (Nat.add_comm k.val 20000)
  have wL : ∀ k : Fin 20000, ridx_main_v1 (ix3 r (0 : Fin 1) o) (Fin.cast rfl (Fin.castAdd 20000 k))
      = ix2 o (⟨k.val, by omega⟩ : Fin 40000) := fun k => by
    funext d; match d with | ⟨0, _⟩ => rfl | ⟨1, _⟩ => rfl
  have wR : ∀ k : Fin 20000, ridx_main_v1 (ix3 r (0 : Fin 1) o) (Fin.cast rfl (Fin.natAdd 20000 k))
      = ix2 o (⟨20000 + k.val, by omega⟩ : Fin 40000) := fun k => by
    funext d; match d with | ⟨0, _⟩ => rfl | ⟨1, _⟩ => rfl
  simp only [hL, hR, wL, wR]
  rfl

/-- The row mean of layer 1: the stage that divides the row sum by the row length, at any index of row `r`. -/
theorem mean1 (r : Fin 4096) (a b : Fin 1) :
    val_main_v8 (F := Ideal) x0 x1 x2 x3 (ix3 r a b) = mean c128 (fun j : Fin 128 => val_main_v4 (F := Ideal) x0 x1 x2 x3 (ix3 r (0 : Fin 1) j)) := by
  rw [val_main_v8_apply, val_main_v6_apply, val_main_v7_apply, val_main_v5_apply, val_main_cst_apply, val_main_cst_0_apply]
  have h : ∀ k : Fin 128, idx_main_v5 (idx_main_v6 (ix3 r a b)) k = ix3 r (0 : Fin 1) k := fun k => by
    funext d; match d with | ⟨0, _⟩ => rfl | ⟨1, _⟩ => rfl | ⟨2, _⟩ => rfl
  simp only [h]
  rw [Ideal.ofBits_def, Ideal.ofBits_zero_f32, zero_add]
  rfl

/-- The row variance of layer 1. -/
theorem var1 (r : Fin 4096) (a b : Fin 1) :
    val_main_v15 (F := Ideal) x0 x1 x2 x3 (ix3 r a b) = variance c128 (fun j : Fin 128 => val_main_v4 (F := Ideal) x0 x1 x2 x3 (ix3 r (0 : Fin 1) j)) := by
  rw [val_main_v15_apply, val_main_v13_apply, val_main_v14_apply, val_main_v12_apply, val_main_cst_1_apply, val_main_cst_2_apply]
  have h : ∀ k : Fin 128, idx_main_v12 (idx_main_v13 (ix3 r a b)) k = ix3 r (0 : Fin 1) k := fun k => by
    funext d; match d with | ⟨0, _⟩ => rfl | ⟨1, _⟩ => rfl | ⟨2, _⟩ => rfl
  simp only [h]
  have e : ∀ k : Fin 128, val_main_v11 (F := Ideal) x0 x1 x2 x3 (ix3 r (0 : Fin 1) k)
      = (val_main_v4 (F := Ideal) x0 x1 x2 x3 (ix3 r (0 : Fin 1) k) - mean c128 (fun j : Fin 128 => val_main_v4 (F := Ideal) x0 x1 x2 x3 (ix3 r (0 : Fin 1) j))) * (val_main_v4 (F := Ideal) x0 x1 x2 x3 (ix3 r (0 : Fin 1) k) - mean c128 (fun j : Fin 128 => val_main_v4 (F := Ideal) x0 x1 x2 x3 (ix3 r (0 : Fin 1) j))) := fun k => by
    rw [val_main_v11_apply, val_main_v10_apply, val_main_v9_apply]
    have h9 : idx_main_v9 (ix3 r (0 : Fin 1) k) = ix3 r (0 : Fin 1) (0 : Fin 1) := by
      funext d; match d with | ⟨0, _⟩ => rfl | ⟨1, _⟩ => rfl | ⟨2, _⟩ => rfl
    rw [h9, mean1]
    rfl
  simp only [e]
  rw [Ideal.ofBits_def, Ideal.ofBits_zero_f32, zero_add]
  rfl

/-- Layer 1's normalise-and-rectify stage on row `r` is `normLeaky` of the row's pre-activations. -/
theorem layerNorm1 (r : Fin 4096) (j : Fin 128) :
    val_main_v27 (F := Ideal) x0 x1 x2 x3 (ix3 r (0 : Fin 1) j) = normLeaky c128 eps zero slope (fun j : Fin 128 => val_main_v4 (F := Ideal) x0 x1 x2 x3 (ix3 r (0 : Fin 1) j)) j := by
  have h22 : val_main_v22 (F := Ideal) x0 x1 x2 x3 (ix3 r (0 : Fin 1) j) = normed c128 eps (fun j : Fin 128 => val_main_v4 (F := Ideal) x0 x1 x2 x3 (ix3 r (0 : Fin 1) j)) j := by
    rw [val_main_v22_apply, val_main_v17_apply, val_main_v16_apply, val_main_v21_apply, val_main_v20_apply, val_main_v19_apply, val_main_v18_apply, val_main_cst_3_apply]
    have h16 : idx_main_v16 (ix3 r (0 : Fin 1) j) = ix3 r (0 : Fin 1) (0 : Fin 1) := by
      funext d; match d with | ⟨0, _⟩ => rfl | ⟨1, _⟩ => rfl | ⟨2, _⟩ => rfl
    have h21 : idx_main_v21 (ix3 r (0 : Fin 1) j) = ix3 r (0 : Fin 1) (0 : Fin 1) := by
      funext d; match d with | ⟨0, _⟩ => rfl | ⟨1, _⟩ => rfl | ⟨2, _⟩ => rfl
    rw [h16, h21, mean1, var1]
    rfl
  rw [val_main_v27_apply, val_main_v24_apply, val_main_v26_apply, val_main_v23_apply, val_main_v25_apply, val_main_cst_4_apply, val_main_cst_5_apply, h22]
  rfl

/-- Row `r` of layer 1, as functions of the column. -/
theorem rowAct1 (r : Fin 4096) :
    (fun k : Fin 128 => val_main_v27 (F := Ideal) x0 x1 x2 x3 (ix3 r (0 : Fin 1) k))
      = normLeaky c128 eps zero slope (fun j : Fin 128 => val_main_v4 (F := Ideal) x0 x1 x2 x3 (ix3 r (0 : Fin 1) j)) :=
  funext fun j => layerNorm1 x0 x1 x2 x3 r j

/-- Layer 2's pre-activation on row `r` is the affine map of the previous layer's row. -/
theorem affine2 (r : Fin 4096) (o : Fin 64) :
    val_main_v31 (F := Ideal) x0 x1 x2 x3 x4 x5 (ix3 r (0 : Fin 1) o)
      = affine (fun k : Fin 128 => val_main_v27 (F := Ideal) x0 x1 x2 x3 (ix3 r (0 : Fin 1) k)) (fun o k => x4 (ix2 o k)) (fun o => x5 (ix1 o)) o := by
  rw [val_main_v31_apply, val_main_v28_apply, val_main_v30_apply, val_main_v29_apply]
  have hb : idx_main_v29 (idx_main_v30 (ix3 r (0 : Fin 1) o)) = ix1 o := by
    funext d; match d with | ⟨0, _⟩ => rfl
  have hl : ∀ k : Fin 128, lidx_main_v28 (ix3 r (0 : Fin 1) o) k = ix3 r (0 : Fin 1) k := fun k => by
    funext d; match d with | ⟨0, _⟩ => rfl | ⟨1, _⟩ => rfl | ⟨2, _⟩ => rfl
  have hr : ∀ k : Fin 128, ridx_main_v28 (ix3 r (0 : Fin 1) o) k = ix2 o k := fun k => by
    funext d; match d with | ⟨0, _⟩ => rfl | ⟨1, _⟩ => rfl
  simp only [hb, hl, hr]
  rfl

/-- The row mean of layer 2: the stage that divides the row sum by the row length, at any index of row `r`. -/
theorem mean2 (r : Fin 4096) (a b : Fin 1) :
    val_main_v35 (F := Ideal) x0 x1 x2 x3 x4 x5 (ix3 r a b) = mean c64 (fun j : Fin 64 => val_main_v31 (F := Ideal) x0 x1 x2 x3 x4 x5 (ix3 r (0 : Fin 1) j)) := by
  rw [val_main_v35_apply, val_main_v33_apply, val_main_v34_apply, val_main_v32_apply, val_main_cst_6_apply, val_main_cst_7_apply]
  have h : ∀ k : Fin 64, idx_main_v32 (idx_main_v33 (ix3 r a b)) k = ix3 r (0 : Fin 1) k := fun k => by
    funext d; match d with | ⟨0, _⟩ => rfl | ⟨1, _⟩ => rfl | ⟨2, _⟩ => rfl
  simp only [h]
  rw [Ideal.ofBits_def, Ideal.ofBits_zero_f32, zero_add]
  rfl

/-- The row variance of layer 2. -/
theorem var2 (r : Fin 4096) (a b : Fin 1) :
    val_main_v42 (F := Ideal) x0 x1 x2 x3 x4 x5 (ix3 r a b) = variance c64 (fun j : Fin 64 => val_main_v31 (F := Ideal) x0 x1 x2 x3 x4 x5 (ix3 r (0 : Fin 1) j)) := by
  rw [val_main_v42_apply, val_main_v40_apply, val_main_v41_apply, val_main_v39_apply, val_main_cst_8_apply, val_main_cst_9_apply]
  have h : ∀ k : Fin 64, idx_main_v39 (idx_main_v40 (ix3 r a b)) k = ix3 r (0 : Fin 1) k := fun k => by
    funext d; match d with | ⟨0, _⟩ => rfl | ⟨1, _⟩ => rfl | ⟨2, _⟩ => rfl
  simp only [h]
  have e : ∀ k : Fin 64, val_main_v38 (F := Ideal) x0 x1 x2 x3 x4 x5 (ix3 r (0 : Fin 1) k)
      = (val_main_v31 (F := Ideal) x0 x1 x2 x3 x4 x5 (ix3 r (0 : Fin 1) k) - mean c64 (fun j : Fin 64 => val_main_v31 (F := Ideal) x0 x1 x2 x3 x4 x5 (ix3 r (0 : Fin 1) j))) * (val_main_v31 (F := Ideal) x0 x1 x2 x3 x4 x5 (ix3 r (0 : Fin 1) k) - mean c64 (fun j : Fin 64 => val_main_v31 (F := Ideal) x0 x1 x2 x3 x4 x5 (ix3 r (0 : Fin 1) j))) := fun k => by
    rw [val_main_v38_apply, val_main_v37_apply, val_main_v36_apply]
    have h9 : idx_main_v36 (ix3 r (0 : Fin 1) k) = ix3 r (0 : Fin 1) (0 : Fin 1) := by
      funext d; match d with | ⟨0, _⟩ => rfl | ⟨1, _⟩ => rfl | ⟨2, _⟩ => rfl
    rw [h9, mean2]
    rfl
  simp only [e]
  rw [Ideal.ofBits_def, Ideal.ofBits_zero_f32, zero_add]
  rfl

/-- Layer 2's normalise-and-rectify stage on row `r` is `normLeaky` of the row's pre-activations. -/
theorem layerNorm2 (r : Fin 4096) (j : Fin 64) :
    val_main_v54 (F := Ideal) x0 x1 x2 x3 x4 x5 (ix3 r (0 : Fin 1) j) = normLeaky c64 eps zero slope (fun j : Fin 64 => val_main_v31 (F := Ideal) x0 x1 x2 x3 x4 x5 (ix3 r (0 : Fin 1) j)) j := by
  have h22 : val_main_v49 (F := Ideal) x0 x1 x2 x3 x4 x5 (ix3 r (0 : Fin 1) j) = normed c64 eps (fun j : Fin 64 => val_main_v31 (F := Ideal) x0 x1 x2 x3 x4 x5 (ix3 r (0 : Fin 1) j)) j := by
    rw [val_main_v49_apply, val_main_v44_apply, val_main_v43_apply, val_main_v48_apply, val_main_v47_apply, val_main_v46_apply, val_main_v45_apply, val_main_cst_10_apply]
    have h16 : idx_main_v43 (ix3 r (0 : Fin 1) j) = ix3 r (0 : Fin 1) (0 : Fin 1) := by
      funext d; match d with | ⟨0, _⟩ => rfl | ⟨1, _⟩ => rfl | ⟨2, _⟩ => rfl
    have h21 : idx_main_v48 (ix3 r (0 : Fin 1) j) = ix3 r (0 : Fin 1) (0 : Fin 1) := by
      funext d; match d with | ⟨0, _⟩ => rfl | ⟨1, _⟩ => rfl | ⟨2, _⟩ => rfl
    rw [h16, h21, mean2, var2]
    rfl
  rw [val_main_v54_apply, val_main_v51_apply, val_main_v53_apply, val_main_v50_apply, val_main_v52_apply, val_main_cst_11_apply, val_main_cst_12_apply, h22]
  rfl

/-- Row `r` of layer 2, as functions of the column. -/
theorem rowAct2 (r : Fin 4096) :
    (fun k : Fin 64 => val_main_v54 (F := Ideal) x0 x1 x2 x3 x4 x5 (ix3 r (0 : Fin 1) k))
      = normLeaky c64 eps zero slope (fun j : Fin 64 => val_main_v31 (F := Ideal) x0 x1 x2 x3 x4 x5 (ix3 r (0 : Fin 1) j)) :=
  funext fun j => layerNorm2 x0 x1 x2 x3 x4 x5 r j

/-- Layer 3's pre-activation on row `r` is the affine map of the previous layer's row. -/
theorem affine3 (r : Fin 4096) (o : Fin 32) :
    val_main_v58 (F := Ideal) x0 x1 x2 x3 x4 x5 x6 x7 (ix3 r (0 : Fin 1) o)
      = affine (fun k : Fin 64 => val_main_v54 (F := Ideal) x0 x1 x2 x3 x4 x5 (ix3 r (0 : Fin 1) k)) (fun o k => x6 (ix2 o k)) (fun o => x7 (ix1 o)) o := by
  rw [val_main_v58_apply, val_main_v55_apply, val_main_v57_apply, val_main_v56_apply]
  have hb : idx_main_v56 (idx_main_v57 (ix3 r (0 : Fin 1) o)) = ix1 o := by
    funext d; match d with | ⟨0, _⟩ => rfl
  have hl : ∀ k : Fin 64, lidx_main_v55 (ix3 r (0 : Fin 1) o) k = ix3 r (0 : Fin 1) k := fun k => by
    funext d; match d with | ⟨0, _⟩ => rfl | ⟨1, _⟩ => rfl | ⟨2, _⟩ => rfl
  have hr : ∀ k : Fin 64, ridx_main_v55 (ix3 r (0 : Fin 1) o) k = ix2 o k := fun k => by
    funext d; match d with | ⟨0, _⟩ => rfl | ⟨1, _⟩ => rfl
  simp only [hb, hl, hr]
  rfl

/-- The row mean of layer 3: the stage that divides the row sum by the row length, at any index of row `r`. -/
theorem mean3 (r : Fin 4096) (a b : Fin 1) :
    val_main_v62 (F := Ideal) x0 x1 x2 x3 x4 x5 x6 x7 (ix3 r a b) = mean c32 (fun j : Fin 32 => val_main_v58 (F := Ideal) x0 x1 x2 x3 x4 x5 x6 x7 (ix3 r (0 : Fin 1) j)) := by
  rw [val_main_v62_apply, val_main_v60_apply, val_main_v61_apply, val_main_v59_apply, val_main_cst_13_apply, val_main_cst_14_apply]
  have h : ∀ k : Fin 32, idx_main_v59 (idx_main_v60 (ix3 r a b)) k = ix3 r (0 : Fin 1) k := fun k => by
    funext d; match d with | ⟨0, _⟩ => rfl | ⟨1, _⟩ => rfl | ⟨2, _⟩ => rfl
  simp only [h]
  rw [Ideal.ofBits_def, Ideal.ofBits_zero_f32, zero_add]
  rfl

/-- The row variance of layer 3. -/
theorem var3 (r : Fin 4096) (a b : Fin 1) :
    val_main_v69 (F := Ideal) x0 x1 x2 x3 x4 x5 x6 x7 (ix3 r a b) = variance c32 (fun j : Fin 32 => val_main_v58 (F := Ideal) x0 x1 x2 x3 x4 x5 x6 x7 (ix3 r (0 : Fin 1) j)) := by
  rw [val_main_v69_apply, val_main_v67_apply, val_main_v68_apply, val_main_v66_apply, val_main_cst_15_apply, val_main_cst_16_apply]
  have h : ∀ k : Fin 32, idx_main_v66 (idx_main_v67 (ix3 r a b)) k = ix3 r (0 : Fin 1) k := fun k => by
    funext d; match d with | ⟨0, _⟩ => rfl | ⟨1, _⟩ => rfl | ⟨2, _⟩ => rfl
  simp only [h]
  have e : ∀ k : Fin 32, val_main_v65 (F := Ideal) x0 x1 x2 x3 x4 x5 x6 x7 (ix3 r (0 : Fin 1) k)
      = (val_main_v58 (F := Ideal) x0 x1 x2 x3 x4 x5 x6 x7 (ix3 r (0 : Fin 1) k) - mean c32 (fun j : Fin 32 => val_main_v58 (F := Ideal) x0 x1 x2 x3 x4 x5 x6 x7 (ix3 r (0 : Fin 1) j))) * (val_main_v58 (F := Ideal) x0 x1 x2 x3 x4 x5 x6 x7 (ix3 r (0 : Fin 1) k) - mean c32 (fun j : Fin 32 => val_main_v58 (F := Ideal) x0 x1 x2 x3 x4 x5 x6 x7 (ix3 r (0 : Fin 1) j))) := fun k => by
    rw [val_main_v65_apply, val_main_v64_apply, val_main_v63_apply]
    have h9 : idx_main_v63 (ix3 r (0 : Fin 1) k) = ix3 r (0 : Fin 1) (0 : Fin 1) := by
      funext d; match d with | ⟨0, _⟩ => rfl | ⟨1, _⟩ => rfl | ⟨2, _⟩ => rfl
    rw [h9, mean3]
    rfl
  simp only [e]
  rw [Ideal.ofBits_def, Ideal.ofBits_zero_f32, zero_add]
  rfl

/-- Layer 3's normalise-and-rectify stage on row `r` is `normLeaky` of the row's pre-activations. -/
theorem layerNorm3 (r : Fin 4096) (j : Fin 32) :
    val_main_v81 (F := Ideal) x0 x1 x2 x3 x4 x5 x6 x7 (ix3 r (0 : Fin 1) j) = normLeaky c32 eps zero slope (fun j : Fin 32 => val_main_v58 (F := Ideal) x0 x1 x2 x3 x4 x5 x6 x7 (ix3 r (0 : Fin 1) j)) j := by
  have h22 : val_main_v76 (F := Ideal) x0 x1 x2 x3 x4 x5 x6 x7 (ix3 r (0 : Fin 1) j) = normed c32 eps (fun j : Fin 32 => val_main_v58 (F := Ideal) x0 x1 x2 x3 x4 x5 x6 x7 (ix3 r (0 : Fin 1) j)) j := by
    rw [val_main_v76_apply, val_main_v71_apply, val_main_v70_apply, val_main_v75_apply, val_main_v74_apply, val_main_v73_apply, val_main_v72_apply, val_main_cst_17_apply]
    have h16 : idx_main_v70 (ix3 r (0 : Fin 1) j) = ix3 r (0 : Fin 1) (0 : Fin 1) := by
      funext d; match d with | ⟨0, _⟩ => rfl | ⟨1, _⟩ => rfl | ⟨2, _⟩ => rfl
    have h21 : idx_main_v75 (ix3 r (0 : Fin 1) j) = ix3 r (0 : Fin 1) (0 : Fin 1) := by
      funext d; match d with | ⟨0, _⟩ => rfl | ⟨1, _⟩ => rfl | ⟨2, _⟩ => rfl
    rw [h16, h21, mean3, var3]
    rfl
  rw [val_main_v81_apply, val_main_v78_apply, val_main_v80_apply, val_main_v77_apply, val_main_v79_apply, val_main_cst_18_apply, val_main_cst_19_apply, h22]
  rfl

/-- Row `r` of layer 3, as functions of the column. -/
theorem rowAct3 (r : Fin 4096) :
    (fun k : Fin 32 => val_main_v81 (F := Ideal) x0 x1 x2 x3 x4 x5 x6 x7 (ix3 r (0 : Fin 1) k))
      = normLeaky c32 eps zero slope (fun j : Fin 32 => val_main_v58 (F := Ideal) x0 x1 x2 x3 x4 x5 x6 x7 (ix3 r (0 : Fin 1) j)) :=
  funext fun j => layerNorm3 x0 x1 x2 x3 x4 x5 x6 x7 r j

/-- Layer 4's pre-activation on row `r` is the affine map of the previous layer's row. -/
theorem affine4 (r : Fin 4096) (o : Fin 16) :
    val_main_v85 (F := Ideal) x0 x1 x2 x3 x4 x5 x6 x7 x8 x9 (ix3 r (0 : Fin 1) o)
      = affine (fun k : Fin 32 => val_main_v81 (F := Ideal) x0 x1 x2 x3 x4 x5 x6 x7 (ix3 r (0 : Fin 1) k)) (fun o k => x8 (ix2 o k)) (fun o => x9 (ix1 o)) o := by
  rw [val_main_v85_apply, val_main_v82_apply, val_main_v84_apply, val_main_v83_apply]
  have hb : idx_main_v83 (idx_main_v84 (ix3 r (0 : Fin 1) o)) = ix1 o := by
    funext d; match d with | ⟨0, _⟩ => rfl
  have hl : ∀ k : Fin 32, lidx_main_v82 (ix3 r (0 : Fin 1) o) k = ix3 r (0 : Fin 1) k := fun k => by
    funext d; match d with | ⟨0, _⟩ => rfl | ⟨1, _⟩ => rfl | ⟨2, _⟩ => rfl
  have hr : ∀ k : Fin 32, ridx_main_v82 (ix3 r (0 : Fin 1) o) k = ix2 o k := fun k => by
    funext d; match d with | ⟨0, _⟩ => rfl | ⟨1, _⟩ => rfl
  simp only [hb, hl, hr]
  rfl

end Rows

/-- The reference program's result is the specification's array: entry `(r, 0, o)` is the network on row `r`. -/
theorem result_eq (x0 x1 : (⟨S4096x1x20000, .f32⟩ : BufTy).Contents (Elt Ideal)) (x2 : (⟨S128x40000, .f32⟩ : BufTy).Contents (Elt Ideal)) (x3 : (⟨S128, .f32⟩ : BufTy).Contents (Elt Ideal)) (x4 : (⟨S64x128, .f32⟩ : BufTy).Contents (Elt Ideal)) (x5 : (⟨S64, .f32⟩ : BufTy).Contents (Elt Ideal)) (x6 : (⟨S32x64, .f32⟩ : BufTy).Contents (Elt Ideal)) (x7 : (⟨S32, .f32⟩ : BufTy).Contents (Elt Ideal)) (x8 : (⟨S16x32, .f32⟩ : BufTy).Contents (Elt Ideal)) (x9 : (⟨S16, .f32⟩ : BufTy).Contents (Elt Ideal)) :
    Cert.ReferenceIdeal.ReadP.val_main_v85 (F := Ideal) x0 x1 x2 x3 x4 x5 x6 x7 x8 x9 = Cert.MlpSpec.G ⟨x0, x1, x2, x3, x4, x5, x6, x7, x8, x9⟩ := by
  funext i
  obtain ⟨r, a, o, rfl⟩ : ∃ (r : Fin 4096) (a : Fin 1) (o : Fin 16), i = ix3 r a o := ⟨i 0, i 1, i 2, eq_ix3 i⟩
  obtain rfl : a = 0 := Subsingleton.elim _ _
  rw [G_ix3, affine4, rowAct3, funext (affine3 x0 x1 x2 x3 x4 x5 x6 x7 r), rowAct2, funext (affine2 x0 x1 x2 x3 x4 x5 r), rowAct1,
    funext (affine1 x0 x1 x2 x3 r)]
  rfl

end Cert.ReferenceIdeal.Rows

end
-- ==== Proof.KernelRows.lean ====
import proofs.«107008_j48301202211328_2_alg».proof.Proof.Gen.KernelIdeal.Skeleton
import proofs.«107008_j48301202211328_2_alg».proof.Proof.MlpSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Rows

open Idealize.ShloMosaic Idealize.ShloMosaic.ValueIdx Idealize.SL.Sem Cert.KernelIdeal Cert.KernelIdeal.Gen Cert.MlpRows Cert.MlpSpec

/-! The kernel's arithmetic on one row of a 64-row block: each layout operation and each product read at an index, then the
    four stretches of the computation as the row functions of the specification. -/

/-- A length-64 array recast as a 64 × 1 column reads, at `(r, c)`, the array's entry `r`. -/
theorem castCol {α : Type} (v : S64.Idx → α) (h : S64.ShapeCasts S64x1) (r : Fin 64) (c : Fin 1) :
    shapeCast S64x1 v h (ix2 r c) = v (ix1 r) := by
  refine shapeCast_apply v h (ix2 r c) (ix1 r) ?_
  rw [Shape.rowMajor_val_one, Shape.rowMajor_val_two]
  show r.val = r.val * 1 + c.val
  omega

/-- A sum over the columns of a 64 × 128 array, read at row `r`, is the sum of that row's entries. -/
theorem rowsum128 (src : FVec Ideal S64x128 .f32) (h : S64x128.Reduces [1] S64) (hφ : FTy.f32 = FTy.f32 ∨ FTy.f32 = FTy.bf16)
    (hacc : (0x00000000#32 : BitVec 32) = 0x00000000#32) (r : Fin 64) :
    multiReduction (F := Ideal) .add [1] S64 src 0x00000000#32 h hφ hacc (ix1 r) = ∑ k : Fin 128, src (ix2 r k) := by
  refine (Ideal.multiReduction_add_single src 0x00000000#32 h hφ hacc (ix1 r)).trans ?_
  show ∑ k : Fin 128, src (h.lift (ix1 r) k) = _
  refine Finset.sum_congr rfl fun k _ => congrArg src (funext fun a => Fin.ext ?_)
  match a with
  | ⟨0, _⟩ => rfl
  | ⟨1, _⟩ => rfl

/-- A 64 × 1 column broadcast along the columns of a 64 × 128 array reads, at `(r, j)`, the column's entry at row `r`. -/
theorem bcastCol128 {α : Type} (v : S64x1.Idx → α) (h : S64x1.Broadcasts S64x128) (r : Fin 64) (j : Fin 128) :
    broadcastTo S64x128 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A sum over the columns of a 64 × 64 array, read at row `r`, is the sum of that row's entries. -/
theorem rowsum64 (src : FVec Ideal S64x64 .f32) (h : S64x64.Reduces [1] S64) (hφ : FTy.f32 = FTy.f32 ∨ FTy.f32 = FTy.bf16)
    (hacc : (0x00000000#32 : BitVec 32) = 0x00000000#32) (r : Fin 64) :
    multiReduction (F := Ideal) .add [1] S64 src 0x00000000#32 h hφ hacc (ix1 r) = ∑ k : Fin 64, src (ix2 r k) := by
  refine (Ideal.multiReduction_add_single src 0x00000000#32 h hφ hacc (ix1 r)).trans ?_
  show ∑ k : Fin 64, src (h.lift (ix1 r) k) = _
  refine Finset.sum_congr rfl fun k _ => congrArg src (funext fun a => Fin.ext ?_)
  match a with
  | ⟨0, _⟩ => rfl
  | ⟨1, _⟩ => rfl

/-- A 64 × 1 column broadcast along the columns of a 64 × 64 array reads, at `(r, j)`, the column's entry at row `r`. -/
theorem bcastCol64 {α : Type} (v : S64x1.Idx → α) (h : S64x1.Broadcasts S64x64) (r : Fin 64) (j : Fin 64) :
    broadcastTo S64x64 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A sum over the columns of a 64 × 32 array, read at row `r`, is the sum of that row's entries. -/
theorem rowsum32 (src : FVec Ideal S64x32 .f32) (h : S64x32.Reduces [1] S64) (hφ : FTy.f32 = FTy.f32 ∨ FTy.f32 = FTy.bf16)
    (hacc : (0x00000000#32 : BitVec 32) = 0x00000000#32) (r : Fin 64) :
    multiReduction (F := Ideal) .add [1] S64 src 0x00000000#32 h hφ hacc (ix1 r) = ∑ k : Fin 32, src (ix2 r k) := by
  refine (Ideal.multiReduction_add_single src 0x00000000#32 h hφ hacc (ix1 r)).trans ?_
  show ∑ k : Fin 32, src (h.lift (ix1 r) k) = _
  refine Finset.sum_congr rfl fun k _ => congrArg src (funext fun a => Fin.ext ?_)
  match a with
  | ⟨0, _⟩ => rfl
  | ⟨1, _⟩ => rfl

/-- A 64 × 1 column broadcast along the columns of a 64 × 32 array reads, at `(r, j)`, the column's entry at row `r`. -/
theorem bcastCol32 {α : Type} (v : S64x1.Idx → α) (h : S64x1.Broadcasts S64x32) (r : Fin 64) (j : Fin 32) :
    broadcastTo S64x32 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The operand indices of the 64 × 20000 by 20000 × 128 product at an output index and a contraction index, coordinate by coordinate. -/
theorem lhs0_20000x128 (i : S64x128.Idx) (q : dot_S64x20000_S20000x128_S64x128_1_0_0_1_n_n.contr.Idx) : (dot_S64x20000_S20000x128_S64x128_1_0_0_1_n_n.lhsIdx i q 0).val = (i 0).val := by
  unfold DotDims.lhsIdx
  rw [dif_neg (show ¬(0 : Fin S64x20000.rank) ∈ dot_S64x20000_S20000x128_S64x128_1_0_0_1_n_n.lhsBatch by decide), dif_pos (show (0 : Fin S64x20000.rank) ∈ dot_S64x20000_S20000x128_S64x128_1_0_0_1_n_n.lhsNonContracting by decide)]
  rfl
theorem lhs1_20000x128 (i : S64x128.Idx) (q : dot_S64x20000_S20000x128_S64x128_1_0_0_1_n_n.contr.Idx) : (dot_S64x20000_S20000x128_S64x128_1_0_0_1_n_n.lhsIdx i q 1).val = (q ⟨0, by decide⟩).val :=
  dot_S64x20000_S20000x128_S64x128_1_0_0_1_n_n.lhsIdx_val_of_single rfl i q
theorem rhs0_20000x128 (i : S64x128.Idx) (q : dot_S64x20000_S20000x128_S64x128_1_0_0_1_n_n.contr.Idx) : (dot_S64x20000_S20000x128_S64x128_1_0_0_1_n_n.rhsIdx i q 0).val = (q ⟨0, by decide⟩).val :=
  dot_S64x20000_S20000x128_S64x128_1_0_0_1_n_n.rhsIdx_val_of_single rfl i q
theorem rhs1_20000x128 (i : S64x128.Idx) (q : dot_S64x20000_S20000x128_S64x128_1_0_0_1_n_n.contr.Idx) : (dot_S64x20000_S20000x128_S64x128_1_0_0_1_n_n.rhsIdx i q 1).val = (i 1).val := by
  unfold DotDims.rhsIdx
  rw [dif_neg (show ¬(1 : Fin S20000x128.rank) ∈ dot_S64x20000_S20000x128_S64x128_1_0_0_1_n_n.rhsBatch by decide), dif_pos (show (1 : Fin S20000x128.rank) ∈ dot_S64x20000_S20000x128_S64x128_1_0_0_1_n_n.rhsNonContracting by decide)]
  rfl

/-- A 64 × 20000 by 20000 × 128 product into a zero accumulator reads, at `(r, o)`, the sum over `k` of the products of row `r` and column `o`. -/
theorem matmul20000x128 (lhs : FVec Ideal S64x20000 .bf16) (rhs : FVec Ideal S20000x128 .bf16) (r : Fin 64) (o : Fin 128) :
    matmul dot_S64x20000_S20000x128_S64x128_1_0_0_1_n_n none lhs rhs (constant (F := Ideal) S64x128 .f32 0x00000000#32) (ix2 r o)
      = ∑ k : Fin 20000, lhs (ix2 r k) * rhs (ix2 k o) := by
  refine (Ideal.matmul_constant_zero_apply dot_S64x20000_S20000x128_S64x128_1_0_0_1_n_n none lhs rhs (ix2 r o)).trans ?_
  rw [← Equiv.sum_comp (contrEquiv1 dot_S64x20000_S20000x128_S64x128_1_0_0_1_n_n 20000 rfl rfl).symm]
  refine Finset.sum_congr rfl fun k _ => ?_
  have hk := contrEquiv1_symm_val dot_S64x20000_S20000x128_S64x128_1_0_0_1_n_n 20000 rfl rfl k
  have el : dot_S64x20000_S20000x128_S64x128_1_0_0_1_n_n.lhsIdx (ix2 r o) ((contrEquiv1 dot_S64x20000_S20000x128_S64x128_1_0_0_1_n_n 20000 rfl rfl).symm k) = ix2 r k := funext fun a => Fin.ext (by
    match a with
    | ⟨0, _⟩ => exact lhs0_20000x128 _ _
    | ⟨1, _⟩ => exact (lhs1_20000x128 _ _).trans hk)
  have er : dot_S64x20000_S20000x128_S64x128_1_0_0_1_n_n.rhsIdx (ix2 r o) ((contrEquiv1 dot_S64x20000_S20000x128_S64x128_1_0_0_1_n_n 20000 rfl rfl).symm k) = ix2 k o := funext fun a => Fin.ext (by
    match a with
    | ⟨0, _⟩ => exact (rhs0_20000x128 _ _).trans hk
    | ⟨1, _⟩ => exact rhs1_20000x128 _ _)
  rw [el, er]

/-- The operand indices of the 64 × 128 by 128 × 64 product at an output index and a contraction index, coordinate by coordinate. -/
theorem lhs0_128x64 (i : S64x64.Idx) (q : dot_S64x128_S128x64_S64x64_1_0_0_1_n_n.contr.Idx) : (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
theorem lhs1_128x64 (i : S64x64.Idx) (q : dot_S64x128_S128x64_S64x64_1_0_0_1_n_n.contr.Idx) : (dot_S64x128_S128x64_S64x64_1_0_0_1_n_n.lhsIdx i q 1).val = (q ⟨0, by decide⟩).val :=
  dot_S64x128_S128x64_S64x64_1_0_0_1_n_n.lhsIdx_val_of_single rfl i q
theorem rhs0_128x64 (i : S64x64.Idx) (q : dot_S64x128_S128x64_S64x64_1_0_0_1_n_n.contr.Idx) : (dot_S64x128_S128x64_S64x64_1_0_0_1_n_n.rhsIdx i q 0).val = (q ⟨0, by decide⟩).val :=
  dot_S64x128_S128x64_S64x64_1_0_0_1_n_n.rhsIdx_val_of_single rfl i q
theorem rhs1_128x64 (i : S64x64.Idx) (q : dot_S64x128_S128x64_S64x64_1_0_0_1_n_n.contr.Idx) : (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

/-- A 64 × 128 by 128 × 64 product into a zero accumulator reads, at `(r, o)`, the sum over `k` of the products of row `r` and column `o`. -/
theorem matmul128x64 (lhs : FVec Ideal S64x128 .bf16) (rhs : FVec Ideal S128x64 .bf16) (r : Fin 64) (o : Fin 64) :
    matmul dot_S64x128_S128x64_S64x64_1_0_0_1_n_n none lhs rhs (constant (F := Ideal) S64x64 .f32 0x00000000#32) (ix2 r o)
      = ∑ k : Fin 128, lhs (ix2 r k) * rhs (ix2 k o) := by
  refine (Ideal.matmul_constant_zero_apply dot_S64x128_S128x64_S64x64_1_0_0_1_n_n none lhs rhs (ix2 r o)).trans ?_
  rw [← Equiv.sum_comp (contrEquiv1 dot_S64x128_S128x64_S64x64_1_0_0_1_n_n 128 rfl rfl).symm]
  refine Finset.sum_congr rfl fun k _ => ?_
  have hk := contrEquiv1_symm_val dot_S64x128_S128x64_S64x64_1_0_0_1_n_n 128 rfl rfl k
  have el : dot_S64x128_S128x64_S64x64_1_0_0_1_n_n.lhsIdx (ix2 r o) ((contrEquiv1 dot_S64x128_S128x64_S64x64_1_0_0_1_n_n 128 rfl rfl).symm k) = ix2 r k := funext fun a => Fin.ext (by
    match a with
    | ⟨0, _⟩ => exact lhs0_128x64 _ _
    | ⟨1, _⟩ => exact (lhs1_128x64 _ _).trans hk)
  have er : dot_S64x128_S128x64_S64x64_1_0_0_1_n_n.rhsIdx (ix2 r o) ((contrEquiv1 dot_S64x128_S128x64_S64x64_1_0_0_1_n_n 128 rfl rfl).symm k) = ix2 k o := funext fun a => Fin.ext (by
    match a with
    | ⟨0, _⟩ => exact (rhs0_128x64 _ _).trans hk
    | ⟨1, _⟩ => exact rhs1_128x64 _ _)
  rw [el, er]

/-- The operand indices of the 64 × 64 by 64 × 32 product at an output index and a contraction index, coordinate by coordinate. -/
theorem lhs0_64x32 (i : S64x32.Idx) (q : dot_S64x64_S64x32_S64x32_1_0_0_1_n_n.contr.Idx) : (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
theorem lhs1_64x32 (i : S64x32.Idx) (q : dot_S64x64_S64x32_S64x32_1_0_0_1_n_n.contr.Idx) : (dot_S64x64_S64x32_S64x32_1_0_0_1_n_n.lhsIdx i q 1).val = (q ⟨0, by decide⟩).val :=
  dot_S64x64_S64x32_S64x32_1_0_0_1_n_n.lhsIdx_val_of_single rfl i q
theorem rhs0_64x32 (i : S64x32.Idx) (q : dot_S64x64_S64x32_S64x32_1_0_0_1_n_n.contr.Idx) : (dot_S64x64_S64x32_S64x32_1_0_0_1_n_n.rhsIdx i q 0).val = (q ⟨0, by decide⟩).val :=
  dot_S64x64_S64x32_S64x32_1_0_0_1_n_n.rhsIdx_val_of_single rfl i q
theorem rhs1_64x32 (i : S64x32.Idx) (q : dot_S64x64_S64x32_S64x32_1_0_0_1_n_n.contr.Idx) : (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- A 64 × 64 by 64 × 32 product into a zero accumulator reads, at `(r, o)`, the sum over `k` of the products of row `r` and column `o`. -/
theorem matmul64x32 (lhs : FVec Ideal S64x64 .bf16) (rhs : FVec Ideal S64x32 .bf16) (r : Fin 64) (o : Fin 32) :
    matmul dot_S64x64_S64x32_S64x32_1_0_0_1_n_n none lhs rhs (constant (F := Ideal) S64x32 .f32 0x00000000#32) (ix2 r o)
      = ∑ k : Fin 64, lhs (ix2 r k) * rhs (ix2 k o) := by
  refine (Ideal.matmul_constant_zero_apply dot_S64x64_S64x32_S64x32_1_0_0_1_n_n none lhs rhs (ix2 r o)).trans ?_
  rw [← Equiv.sum_comp (contrEquiv1 dot_S64x64_S64x32_S64x32_1_0_0_1_n_n 64 rfl rfl).symm]
  refine Finset.sum_congr rfl fun k _ => ?_
  have hk := contrEquiv1_symm_val dot_S64x64_S64x32_S64x32_1_0_0_1_n_n 64 rfl rfl k
  have el : dot_S64x64_S64x32_S64x32_1_0_0_1_n_n.lhsIdx (ix2 r o) ((contrEquiv1 dot_S64x64_S64x32_S64x32_1_0_0_1_n_n 64 rfl rfl).symm k) = ix2 r k := funext fun a => Fin.ext (by
    match a with
    | ⟨0, _⟩ => exact lhs0_64x32 _ _
    | ⟨1, _⟩ => exact (lhs1_64x32 _ _).trans hk)
  have er : dot_S64x64_S64x32_S64x32_1_0_0_1_n_n.rhsIdx (ix2 r o) ((contrEquiv1 dot_S64x64_S64x32_S64x32_1_0_0_1_n_n 64 rfl rfl).symm k) = ix2 k o := funext fun a => Fin.ext (by
    match a with
    | ⟨0, _⟩ => exact (rhs0_64x32 _ _).trans hk
    | ⟨1, _⟩ => exact rhs1_64x32 _ _)
  rw [el, er]

/-- The operand indices of the 64 × 32 by 32 × 16 product at an output index and a contraction index, coordinate by coordinate. -/
theorem lhs0_32x16 (i : S64x16.Idx) (q : dot_S64x32_S32x16_S64x16_1_0_0_1_n_n.contr.Idx) : (dot_S64x32_S32x16_S64x16_1_0_0_1_n_n.lhsIdx i q 0).val = (i 0).val := by
  unfold DotDims.lhsIdx
  rw [dif_neg (show ¬(0 : Fin S64x32.rank) ∈ dot_S64x32_S32x16_S64x16_1_0_0_1_n_n.lhsBatch by decide), dif_pos (show (0 : Fin S64x32.rank) ∈ dot_S64x32_S32x16_S64x16_1_0_0_1_n_n.lhsNonContracting by decide)]
  rfl
theorem lhs1_32x16 (i : S64x16.Idx) (q : dot_S64x32_S32x16_S64x16_1_0_0_1_n_n.contr.Idx) : (dot_S64x32_S32x16_S64x16_1_0_0_1_n_n.lhsIdx i q 1).val = (q ⟨0, by decide⟩).val :=
  dot_S64x32_S32x16_S64x16_1_0_0_1_n_n.lhsIdx_val_of_single rfl i q
theorem rhs0_32x16 (i : S64x16.Idx) (q : dot_S64x32_S32x16_S64x16_1_0_0_1_n_n.contr.Idx) : (dot_S64x32_S32x16_S64x16_1_0_0_1_n_n.rhsIdx i q 0).val = (q ⟨0, by decide⟩).val :=
  dot_S64x32_S32x16_S64x16_1_0_0_1_n_n.rhsIdx_val_of_single rfl i q
theorem rhs1_32x16 (i : S64x16.Idx) (q : dot_S64x32_S32x16_S64x16_1_0_0_1_n_n.contr.Idx) : (dot_S64x32_S32x16_S64x16_1_0_0_1_n_n.rhsIdx i q 1).val = (i 1).val := by
  unfold DotDims.rhsIdx
  rw [dif_neg (show ¬(1 : Fin S32x16.rank) ∈ dot_S64x32_S32x16_S64x16_1_0_0_1_n_n.rhsBatch by decide), dif_pos (show (1 : Fin S32x16.rank) ∈ dot_S64x32_S32x16_S64x16_1_0_0_1_n_n.rhsNonContracting by decide)]
  rfl

/-- A 64 × 32 by 32 × 16 product into a zero accumulator reads, at `(r, o)`, the sum over `k` of the products of row `r` and column `o`. -/
theorem matmul32x16 (lhs : FVec Ideal S64x32 .bf16) (rhs : FVec Ideal S32x16 .bf16) (r : Fin 64) (o : Fin 16) :
    matmul dot_S64x32_S32x16_S64x16_1_0_0_1_n_n none lhs rhs (constant (F := Ideal) S64x16 .f32 0x00000000#32) (ix2 r o)
      = ∑ k : Fin 32, lhs (ix2 r k) * rhs (ix2 k o) := by
  refine (Ideal.matmul_constant_zero_apply dot_S64x32_S32x16_S64x16_1_0_0_1_n_n none lhs rhs (ix2 r o)).trans ?_
  rw [← Equiv.sum_comp (contrEquiv1 dot_S64x32_S32x16_S64x16_1_0_0_1_n_n 32 rfl rfl).symm]
  refine Finset.sum_congr rfl fun k _ => ?_
  have hk := contrEquiv1_symm_val dot_S64x32_S32x16_S64x16_1_0_0_1_n_n 32 rfl rfl k
  have el : dot_S64x32_S32x16_S64x16_1_0_0_1_n_n.lhsIdx (ix2 r o) ((contrEquiv1 dot_S64x32_S32x16_S64x16_1_0_0_1_n_n 32 rfl rfl).symm k) = ix2 r k := funext fun a => Fin.ext (by
    match a with
    | ⟨0, _⟩ => exact lhs0_32x16 _ _
    | ⟨1, _⟩ => exact (lhs1_32x16 _ _).trans hk)
  have er : dot_S64x32_S32x16_S64x16_1_0_0_1_n_n.rhsIdx (ix2 r o) ((contrEquiv1 dot_S64x32_S32x16_S64x16_1_0_0_1_n_n 32 rfl rfl).symm k) = ix2 k o := funext fun a => Fin.ext (by
    match a with
    | ⟨0, _⟩ => exact (rhs0_32x16 _ _).trans hk
    | ⟨1, _⟩ => exact rhs1_32x16 _ _)
  rw [el, er]

/-- A 1 × 128 row broadcast over 64 rows reads, at `(r, o)`, the row's entry `o`. -/
theorem bias128 {α : Type} (b : S1x128.Idx → α) (h' : S1x128.Broadcasts S64x128) (r : Fin 64) (o : Fin 128) :
    broadcastTo S64x128 b h' (ix2 r o) = b (ix2 (0 : Fin 1) o) :=
  broadcastTo_1b_ab_apply b h' r o

/-- A 1 × 64 row broadcast over 64 rows reads, at `(r, o)`, the row's entry `o`. -/
theorem bias64 {α : Type} (b : S1x64.Idx → α) (h' : S1x64.Broadcasts S64x64) (r : Fin 64) (o : Fin 64) :
    broadcastTo S64x64 b h' (ix2 r o) = b (ix2 (0 : Fin 1) o) :=
  broadcastTo_1b_ab_apply b h' r o

/-- A 1 × 32 row broadcast over 64 rows reads, at `(r, o)`, the row's entry `o`. -/
theorem bias32 {α : Type} (b : S1x32.Idx → α) (h' : S1x32.Broadcasts S64x32) (r : Fin 64) (o : Fin 32) :
    broadcastTo S64x32 b h' (ix2 r o) = b (ix2 (0 : Fin 1) o) :=
  broadcastTo_1b_ab_apply b h' r o

/-- A 1 × 16 row broadcast over 64 rows reads, at `(r, o)`, the row's entry `o`. -/
theorem bias16 {α : Type} (b : S1x16.Idx → α) (h' : S1x16.Broadcasts S64x16) (r : Fin 64) (o : Fin 16) :
    broadcastTo S64x16 b h' (ix2 r o) = b (ix2 (0 : Fin 1) o) :=
  broadcastTo_1b_ab_apply b h' r o

/-- The reciprocal square root of an array is taken entry by entry. -/
theorem rsqrt_apply {s : Shape} (x : FVec Ideal s .f32) (i : s.Idx) : rsqrt x i = Ideal.rsqrt (x i) := rfl

set_option maxRecDepth 65536 in
set_option backward.isDefEq.respectTransparency.types false in
/-- The first layer on a row: the two products' sum plus the bias is the first pre-activation, normalised and rectified. -/
theorem pay2_row (x0 x1 : Vec Ideal S64x20000 .f32) (w1a w1b : Vec Ideal S20000x128 .bf16) (bb1 : Vec Ideal S1x128 .f32)
    (r : Fin 64) (j : Fin 128) :
    Gen.k0_pay2 (F := Ideal) x0 x1 w1a w1b bb1 (ix2 r j)
      = normLeaky c128 eps zero slope (pre1 (fun k => x0 (ix2 r k)) (fun k => x1 (ix2 r k)) (fun o k => w1a (ix2 k o))
          (fun o k => w1b (ix2 k o)) (fun o => bb1 (ix2 (0 : Fin 1) o))) j := by
  unfold Gen.k0_pay2
  simp only [select_apply, cmpf_apply, mulf_apply, subf_apply, addf_apply, divf_apply, broadcast_apply, truncf_apply, rsqrt_apply,
    castCol, shapeCast_self, bcastCol128, matmul20000x128, bias128]
  rw [rowsum128, rowsum128]
  simp only [select_apply, cmpf_apply, mulf_apply, subf_apply, addf_apply, divf_apply, broadcast_apply, truncf_apply, rsqrt_apply,
    castCol, shapeCast_self, bcastCol128, matmul20000x128, bias128]
  rw [rowsum128]
  simp only [select_apply, cmpf_apply, mulf_apply, subf_apply, addf_apply, divf_apply, broadcast_apply, truncf_apply, rsqrt_apply,
    castCol, shapeCast_self, bcastCol128, matmul20000x128, bias128,
    normLeaky, leaky, normed, variance, mean, pre1]
  rfl

set_option maxRecDepth 65536 in
set_option backward.isDefEq.respectTransparency.types false in
/-- The second layer and the third pre-activation on a row. -/
theorem pay3_row (v39 : FVec Ideal S64x128 .f32) (w2 : Vec Ideal S128x64 .bf16) (bb2 : Vec Ideal S1x64 .f32)
    (w3 : Vec Ideal S64x32 .bf16) (bb3 : Vec Ideal S1x32 .f32) (r : Fin 64) (j : Fin 32) :
    Gen.k0_pay3 (F := Ideal) v39 w2 bb2 w3 bb3 (ix2 r j)
      = affine (normLeaky c64 eps zero slope (affine (fun k => v39 (ix2 r k)) (fun o k => w2 (ix2 k o)) (fun o => bb2 (ix2 (0 : Fin 1) o))))
          (fun o k => w3 (ix2 k o)) (fun o => bb3 (ix2 (0 : Fin 1) o)) j := by
  unfold Gen.k0_pay3
  simp only [select_apply, cmpf_apply, mulf_apply, subf_apply, addf_apply, divf_apply, broadcast_apply, truncf_apply, rsqrt_apply,
    castCol, shapeCast_self, bcastCol64, matmul128x64, matmul64x32, bias64, bias32]
  rw [rowsum64, rowsum64]
  simp only [select_apply, cmpf_apply, mulf_apply, subf_apply, addf_apply, divf_apply, broadcast_apply, truncf_apply, rsqrt_apply,
    castCol, shapeCast_self, bcastCol64, matmul128x64, matmul64x32, bias64, bias32]
  rw [rowsum64]
  simp only [select_apply, cmpf_apply, mulf_apply, subf_apply, addf_apply, divf_apply, broadcast_apply, truncf_apply, rsqrt_apply,
    castCol, shapeCast_self, bcastCol64, matmul128x64, matmul64x32, bias64, bias32,
    affine, normLeaky, leaky, normed, variance, mean]
  rfl

set_option backward.isDefEq.respectTransparency.types false in
/-- The row sums of the third pre-activation. -/
theorem pay4_row (v39 : FVec Ideal S64x128 .f32) (w2 : Vec Ideal S128x64 .bf16) (bb2 : Vec Ideal S1x64 .f32)
    (w3 : Vec Ideal S64x32 .bf16) (bb3 : Vec Ideal S1x32 .f32) (r : Fin 64) (c : Fin 1) :
    Gen.k0_pay4 (F := Ideal) v39 w2 bb2 w3 bb3 (ix2 r c) = ∑ k : Fin 32, Gen.k0_pay3 (F := Ideal) v39 w2 bb2 w3 bb3 (ix2 r k) := by
  unfold Gen.k0_pay4
  simp only [castCol]
  rw [rowsum32]

set_option maxRecDepth 65536 in
set_option backward.isDefEq.respectTransparency.types false in
/-- The third layer's normalisation and rectifier from a pre-activation and its row sums, then the last affine map. -/
theorem pay1_row (v78 : FVec Ideal S64x32 .f32) (v80 : FVec Ideal S64x1 .f32) (w4 : Vec Ideal S32x16 .bf16) (bb4 : Vec Ideal S1x16 .f32)
    (r : Fin 64) (o : Fin 16) (h80 : v80 (ix2 r (0 : Fin 1)) = ∑ k : Fin 32, v78 (ix2 r k)) :
    Gen.k0_pay1 (F := Ideal) v78 v80 (Scalar.ofBits .f32 0x42000000#32) w4 bb4 (ix2 r o)
      = affine (normLeaky c32 eps zero slope (fun j => v78 (ix2 r j))) (fun o k => w4 (ix2 k o)) (fun o => bb4 (ix2 (0 : Fin 1) o)) o := by
  unfold Gen.k0_pay1
  simp only [select_apply, cmpf_apply, mulf_apply, subf_apply, addf_apply, divf_apply, broadcast_apply, truncf_apply, rsqrt_apply,
    castCol, shapeCast_self, bcastCol32, matmul32x16, bias16, h80]
  rw [rowsum32]
  simp only [select_apply, cmpf_apply, mulf_apply, subf_apply, addf_apply, divf_apply, broadcast_apply, truncf_apply, rsqrt_apply,
    castCol, shapeCast_self, bcastCol32, matmul32x16, bias16, h80,
    affine, normLeaky, leaky, normed, variance, mean]
  rfl

/-- The kernel's arithmetic on one row of a block is the network on that row. -/
theorem payload_row (x0 x1 : Vec Ideal S64x20000 .f32) (w1a w1b : Vec Ideal S20000x128 .bf16) (bb1 : Vec Ideal S1x128 .f32)
    (w2 : Vec Ideal S128x64 .bf16) (bb2 : Vec Ideal S1x64 .f32) (w3 : Vec Ideal S64x32 .bf16) (bb3 : Vec Ideal S1x32 .f32)
    (w4 : Vec Ideal S32x16 .bf16) (bb4 : Vec Ideal S1x16 .f32) (r : Fin 64) (o : Fin 16) :
    Cert.KernelIdeal.Gen.k0_pay1 (F := Ideal) (Gen.k0_pay3 (Gen.k0_pay2 x0 x1 w1a w1b bb1) w2 bb2 w3 bb3)
        (Gen.k0_pay4 (Gen.k0_pay2 x0 x1 w1a w1b bb1) w2 bb2 w3 bb3) (Scalar.ofBits .f32 0x42000000#32) w4 bb4 (ix2 r o)
      = Cert.MlpSpec.rowOut (fun k => x0 (ix2 r k)) (fun k => x1 (ix2 r k)) (fun o k => w1a (ix2 k o)) (fun o k => w1b (ix2 k o))
          (fun o => bb1 (ix2 (0 : Fin 1) o)) (fun o k => w2 (ix2 k o)) (fun o => bb2 (ix2 (0 : Fin 1) o)) (fun o k => w3 (ix2 k o))
          (fun o => bb3 (ix2 (0 : Fin 1) o)) (fun o k => w4 (ix2 k o)) (fun o => bb4 (ix2 (0 : Fin 1) o)) o := by
  rw [pay1_row _ _ w4 bb4 r o (pay4_row _ w2 bb2 w3 bb3 r 0)]
  simp only [pay3_row, pay2_row]
  rfl

end Cert.KernelIdeal.Rows

end
-- ==== Proof.KernelHost.lean ====
/-
  The arrays the kernel's windows stage, as functions of the program's arguments.

  Before the kernel is launched the program lays its arguments out anew: each input `[4096, 1, 20000]` is reshaped to
  `[4096, 20000]` (row `r`, feature `k` is the input at `(r, 0, k)`); the first weight matrix `[128, 40000]` is cut into its
  columns below and from 20000, each half transposed (entry `(k, o)` of a half is the matrix at `(o, k)`, resp. `(o, 20000 + k)`);
  the other three weight matrices are transposed (entry `(k, o)` is the matrix at `(o, k)`); each bias `[n]` becomes a row `[1, n]`.
  The changes of float format on the way are the identity on the extended reals.
-/
import proofs.«107008_j48301202211328_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-! ## Each staged array as the operations' term of the arguments -/

theorem x1_term (c : Dev nD) : (V m c main_v0 : S4096x20000.Idx → EReal)
    = shapeCast S4096x20000 (m ((c : Thread nD τ).loc main_arg0)) shapeCasts_S4096x1x20000_S4096x20000 := by
  show StableHlo.after hostOps0 (fun b => m (c, b)) (Proc.devRef .tc main_v0) = _
  after_results <;> rfl

theorem x2_term (c : Dev nD) : (V m c main_v1 : S4096x20000.Idx → EReal)
    = shapeCast S4096x20000 (m ((c : Thread nD τ).loc main_arg1)) shapeCasts_S4096x1x20000_S4096x20000 := by
  show StableHlo.after hostOps0 (fun b => m (c, b)) (Proc.devRef .tc main_v1) = _
  after_results <;> rfl

theorem w1a_term (c : Dev nD) : (V m c main_v4 : S20000x128.Idx → EReal)
    = truncf (F := Ideal) .bf16 (transpose S20000x128 [1, 0] (extractStridedSlice S128x20000 ![0, 0] (m ((c : Thread nD τ).loc main_arg2)) slices_S128x40000_S128x20000_0_0) transposes_S128x20000_S20000x128_1_0) bitsLt_bf16_f32 := by
  show StableHlo.after hostOps0 (fun b => m (c, b)) (Proc.devRef .tc main_v4) = _
  after_results <;> rfl

theorem w1b_term (c : Dev nD) : (V m c main_v7 : S20000x128.Idx → EReal)
    = truncf (F := Ideal) .bf16 (transpose S20000x128 [1, 0] (extractStridedSlice S128x20000 ![0, 20000] (m ((c : Thread nD τ).loc main_arg2)) slices_S128x40000_S128x20000_0_20000) transposes_S128x20000_S20000x128_1_0) bitsLt_bf16_f32 := by
  show StableHlo.after hostOps0 (fun b => m (c, b)) (Proc.devRef .tc main_v7) = _
  after_results <;> rfl

theorem w2_term (c : Dev nD) : (V m c main_v9 : S128x64.Idx → EReal)
    = truncf (F := Ideal) .bf16 (transpose S128x64 [1, 0] (m ((c : Thread nD τ).loc main_arg4)) transposes_S64x128_S128x64_1_0) bitsLt_bf16_f32 := by
  show StableHlo.after hostOps0 (fun b => m (c, b)) (Proc.devRef .tc main_v9) = _
  after_results <;> rfl

theorem w3_term (c : Dev nD) : (V m c main_v11 : S64x32.Idx → EReal)
    = truncf (F := Ideal) .bf16 (transpose S64x32 [1, 0] (m ((c : Thread nD τ).loc main_arg6)) transposes_S32x64_S64x32_1_0) bitsLt_bf16_f32 := by
  show StableHlo.after hostOps0 (fun b => m (c, b)) (Proc.devRef .tc main_v11) = _
  after_results <;> rfl

theorem w4_term (c : Dev nD) : (V m c main_v13 : S32x16.Idx → EReal)
    = truncf (F := Ideal) .bf16 (transpose S32x16 [1, 0] (m ((c : Thread nD τ).loc main_arg8)) transposes_S16x32_S32x16_1_0) bitsLt_bf16_f32 := by
  show StableHlo.after hostOps0 (fun b => m (c, b)) (Proc.devRef .tc main_v13) = _
  after_results <;> rfl

theorem b1_term (c : Dev nD) : (V m c main_v14 : S1x128.Idx → EReal)
    = shapeCast S1x128 (m ((c : Thread nD τ).loc main_arg3)) shapeCasts_S128_S1x128 := by
  show StableHlo.after hostOps0 (fun b => m (c, b)) (Proc.devRef .tc main_v14) = _
  after_results <;> rfl

theorem b2_term (c : Dev nD) : (V m c main_v15 : S1x64.Idx → EReal)
    = shapeCast S1x64 (m ((c : Thread nD τ).loc main_arg5)) shapeCasts_S64_S1x64 := by
  show StableHlo.after hostOps0 (fun b => m (c, b)) (Proc.devRef .tc main_v15) = _
  after_results <;> rfl

theorem b3_term (c : Dev nD) : (V m c main_v16 : S1x32.Idx → EReal)
    = shapeCast S1x32 (m ((c : Thread nD τ).loc main_arg7)) shapeCasts_S32_S1x32 := by
  show StableHlo.after hostOps0 (fun b => m (c, b)) (Proc.devRef .tc main_v16) = _
  after_results <;> rfl

theorem b4_term (c : Dev nD) : (V m c main_v17 : S1x16.Idx → EReal)
    = shapeCast S1x16 (m ((c : Thread nD τ).loc main_arg9)) shapeCasts_S16_S1x16 := by
  show StableHlo.after hostOps0 (fun b => m (c, b)) (Proc.devRef .tc main_v17) = _
  after_results <;> rfl

/-! ## The same, read at an index -/

/-- On the extended reals the change of format to bf16 is the identity, entry by entry. -/
theorem truncf_bf16_at {S : Shape} (x : FVec Ideal S .f32) (i : S.Idx) :
    truncf (F := Ideal) .bf16 x bitsLt_bf16_f32 i = x i := rfl

/-- Row `r`, feature `k` of the first staged input is the first argument at `(r, 0, k)`. -/
theorem x1_at (c : Dev nD) (r : Fin 4096) (k : Fin 20000) :
    (V m c main_v0 : S4096x20000.Idx → EReal) (ix2 r k) = (m ((c : Thread nD τ).loc main_arg0)) (ix3 r (0 : Fin 1) k) := by
  rw [x1_term]
  refine shapeCast_apply _ _ _ (ix3 r (0 : Fin 1) k) ?_
  rw [Shape.rowMajor_val_three, Shape.rowMajor_val_two]
  show (r.val * 1 + 0) * 20000 + k.val = r.val * 20000 + k.val
  omega

/-- The same for the second input. -/
theorem x2_at (c : Dev nD) (r : Fin 4096) (k : Fin 20000) :
    (V m c main_v1 : S4096x20000.Idx → EReal) (ix2 r k) = (m ((c : Thread nD τ).loc main_arg1)) (ix3 r (0 : Fin 1) k) := by
  rw [x2_term]
  refine shapeCast_apply _ _ _ (ix3 r (0 : Fin 1) k) ?_
  rw [Shape.rowMajor_val_three, Shape.rowMajor_val_two]
  show (r.val * 1 + 0) * 20000 + k.val = r.val * 20000 + k.val
  omega

/-- Entry `(k, o)` of the first staged half of the first weight matrix is the matrix at `(o, k)`. -/
theorem w1a_at (c : Dev nD) (k : Fin 20000) (o : Fin 128) :
    (V m c main_v4 : S20000x128.Idx → EReal) (ix2 k o) = (m ((c : Thread nD τ).loc main_arg2)) (ix2 o (⟨k.val, by omega⟩ : Fin 40000)) := by
  rw [w1a_term, truncf_bf16_at]
  rw [transpose_apply [1, 0] _ transposes_S128x20000_S20000x128_1_0 (ix2 k o) (ix2 o k)
    (fun b => match b with | ⟨0, _⟩ => rfl | ⟨1, _⟩ => rfl)]
  exact extractStridedSlice_apply _ _ _ (ix2 o k) (ix2 o (⟨k.val, by omega⟩ : Fin 40000))
    (fun a => match a with | ⟨0, _⟩ => (Nat.zero_add _).symm | ⟨1, _⟩ => (Nat.zero_add _).symm)

/-- Entry `(k, o)` of the second staged half is the matrix at `(o, 20000 + k)`. -/
theorem w1b_at (c : Dev nD) (k : Fin 20000) (o : Fin 128) :
    (V m c main_v7 : S20000x128.Idx → EReal) (ix2 k o) = (m ((c : Thread nD τ).loc main_arg2)) (ix2 o (⟨20000 + k.val, by omega⟩ : Fin 40000)) := by
  rw [w1b_term, truncf_bf16_at]
  rw [transpose_apply [1, 0] _ transposes_S128x20000_S20000x128_1_0 (ix2 k o) (ix2 o k)
    (fun b => match b with | ⟨0, _⟩ => rfl | ⟨1, _⟩ => rfl)]
  exact extractStridedSlice_apply _ _ _ (ix2 o k) (ix2 o (⟨20000 + k.val, by omega⟩ : Fin 40000))
    (fun a => match a with | ⟨0, _⟩ => (Nat.zero_add _).symm | ⟨1, _⟩ => rfl)

/-- Entry `(k, o)` of the staged second weight matrix is the matrix at `(o, k)`; likewise the third and the fourth. -/
theorem w2_at (c : Dev nD) (k : Fin 128) (o : Fin 64) :
    (V m c main_v9 : S128x64.Idx → EReal) (ix2 k o) = (m ((c : Thread nD τ).loc main_arg4)) (ix2 o k) := by
  rw [w2_term, truncf_bf16_at]
  exact transpose_apply [1, 0] _ transposes_S64x128_S128x64_1_0 (ix2 k o) (ix2 o k)
    (fun b => match b with | ⟨0, _⟩ => rfl | ⟨1, _⟩ => rfl)

theorem w3_at (c : Dev nD) (k : Fin 64) (o : Fin 32) :
    (V m c main_v11 : S64x32.Idx → EReal) (ix2 k o) = (m ((c : Thread nD τ).loc main_arg6)) (ix2 o k) := by
  rw [w3_term, truncf_bf16_at]
  exact transpose_apply [1, 0] _ transposes_S32x64_S64x32_1_0 (ix2 k o) (ix2 o k)
    (fun b => match b with | ⟨0, _⟩ => rfl | ⟨1, _⟩ => rfl)

theorem w4_at (c : Dev nD) (k : Fin 32) (o : Fin 16) :
    (V m c main_v13 : S32x16.Idx → EReal) (ix2 k o) = (m ((c : Thread nD τ).loc main_arg8)) (ix2 o k) := by
  rw [w4_term, truncf_bf16_at]
  exact transpose_apply [1, 0] _ transposes_S16x32_S32x16_1_0 (ix2 k o) (ix2 o k)
    (fun b => match b with | ⟨0, _⟩ => rfl | ⟨1, _⟩ => rfl)

/-- Entry `(0, o)` of a staged bias row is the bias at `o`. -/
theorem b1_at (c : Dev nD) (o : Fin 128) : (V m c main_v14 : S1x128.Idx → EReal) (ix2 (0 : Fin 1) o) = (m ((c : Thread nD τ).loc main_arg3)) (ix1 o) := by
  rw [b1_term]
  refine shapeCast_apply _ _ _ (ix1 o) ?_
  rw [Shape.rowMajor_val_one, Shape.rowMajor_val_two]
  show o.val = 0 * 128 + o.val
  omega

theorem b2_at (c : Dev nD) (o : Fin 64) : (V m c main_v15 : S1x64.Idx → EReal) (ix2 (0 : Fin 1) o) = (m ((c : Thread nD τ).loc main_arg5)) (ix1 o) := by
  rw [b2_term]
  refine shapeCast_apply _ _ _ (ix1 o) ?_
  rw [Shape.rowMajor_val_one, Shape.rowMajor_val_two]
  show o.val = 0 * 64 + o.val
  omega

theorem b3_at (c : Dev nD) (o : Fin 32) : (V m c main_v16 : S1x32.Idx → EReal) (ix2 (0 : Fin 1) o) = (m ((c : Thread nD τ).loc main_arg7)) (ix1 o) := by
  rw [b3_term]
  refine shapeCast_apply _ _ _ (ix1 o) ?_
  rw [Shape.rowMajor_val_one, Shape.rowMajor_val_two]
  show o.val = 0 * 32 + o.val
  omega

theorem b4_at (c : Dev nD) (o : Fin 16) : (V m c main_v17 : S1x16.Idx → EReal) (ix2 (0 : Fin 1) o) = (m ((c : Thread nD τ).loc main_arg9)) (ix1 o) := by
  rw [b4_term]
  refine shapeCast_apply _ _ _ (ix1 o) ?_
  rw [Shape.rowMajor_val_one, Shape.rowMajor_val_two]
  show o.val = 0 * 16 + o.val
  omega

end Cert.KernelIdeal.Host

end
-- ==== Proof.KernelValue.lean ====
/-
  The kernel's result array as one function of the program's arguments.

  The grid has 64 points; point `t` stages rows `64 t … 64 t + 63` of the two inputs and, every time, the whole of each weight
  matrix and bias row; its body computes the network on each of the 64 staged rows and writes the 64 × 16 results back as rows
  `64 t … 64 t + 63` of a `[4096, 16]` array. Row `r` of block `t` is therefore the network on row `64 t + r` of the inputs
  (`flushed_eq`), every row of the array lies in exactly the block `r / 64` (`cover`), so the array after the run is the network
  row by row (`final`). The program then reshapes `[4096, 16]` to `[4096, 1, 16]`: entry `(r, 0, o)` is entry `(r, o)`.
-/
import proofs.«107008_j48301202211328_2_alg».proof.Proof.KernelHost
import proofs.«107008_j48301202211328_2_alg».proof.Proof.MlpSpec
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- Core `c`'s ten argument arrays. -/
def args (c : Dev nD) : Cert.MlpSpec.Args :=
  ⟨(m ((c : Thread nD τ).loc main_arg0)), (m ((c : Thread nD τ).loc main_arg1)), (m ((c : Thread nD τ).loc main_arg2)), (m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9))⟩

/-- The `[4096, 16]` array of the network's outputs: row `r`, column `o`. -/
def Garr (c : Dev nD) : S4096x16.Idx → EReal :=
  fun i => Cert.MlpSpec.outRow (args m c) ⟨(i 0).val, (i 0).isLt⟩ ⟨(i 1).val, (i 1).isLt⟩

theorem hz : (![0, 0] : Fin 2 → Nat) = fun _ => 0 := funext fun a => by fin_cases a <;> rfl

/-- The printed index maps over the grid: the inputs' and the output's blocks move with the point along the rows, every other
    window stays at its one block. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_11.index t (0 : Fin 2) = t.val
    ∧ win0_11.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- What the kernel's arithmetic is on one staged row (proved over the body's operations in the module on the kernel's rows). -/
abbrev PayloadRow : Prop :=
  ∀ (x0 x1 : Vec Ideal S64x20000 .f32) (w1a w1b : Vec Ideal S20000x128 .bf16) (bb1 : Vec Ideal S1x128 .f32)
      (w2 : Vec Ideal S128x64 .bf16) (bb2 : Vec Ideal S1x64 .f32) (w3 : Vec Ideal S64x32 .bf16) (bb3 : Vec Ideal S1x32 .f32)
      (w4 : Vec Ideal S32x16 .bf16) (bb4 : Vec Ideal S1x16 .f32) (r : Fin 64) (o : Fin 16),
      k0_pay1 (F := Ideal) (k0_pay3 (k0_pay2 x0 x1 w1a w1b bb1) w2 bb2 w3 bb3) (k0_pay4 (k0_pay2 x0 x1 w1a w1b bb1) w2 bb2 w3 bb3)
          (Scalar.ofBits .f32 0x42000000#32) w4 bb4 (ix2 r o)
        = Cert.MlpSpec.rowOut (fun k => x0 (ix2 r k)) (fun k => x1 (ix2 r k)) (fun o k => w1a (ix2 k o)) (fun o k => w1b (ix2 k o))
            (fun o => bb1 (ix2 (0 : Fin 1) o)) (fun o k => w2 (ix2 k o)) (fun o => bb2 (ix2 (0 : Fin 1) o)) (fun o k => w3 (ix2 k o))
            (fun o => bb3 (ix2 (0 : Fin 1) o)) (fun o k => w4 (ix2 k o)) (fun o => bb4 (ix2 (0 : Fin 1) o)) o

/-- Row `r` of point `t`'s blocks is row `64 t + r` of the arrays. -/
def rowOf (t : Fin cfg0.N) (r : Fin 64) : Fin 4096 :=
  ⟨t.val * 64 + r.val, by have ht : t.val < 64 := t.isLt; have := r.isLt; omega⟩

/-! ### Each staged block, read where the body reads it, in terms of the arguments -/

theorem acc0 (c : Dev nD) (t : Fin cfg0.N) (r : Fin 64) :
    (fun k : Fin 20000 => iblk m c 0 t (ix2 r k)) = fun k : Fin 20000 => (args m c).x1 (ix3 (rowOf t r) (0 : Fin 1) k) := by
  obtain ⟨f0, f1, f2, f3, f4, f5, f6, f7, f8, f9, f10, f11, f12, f13, f14, f15, f16, f17, f18, f19, f20, f21, f22, f23⟩ := idx_facts t
  funext k
  show (V m c main_v0 : S4096x20000.Idx → EReal) (((cfg0.win 0).blk t).view.emb (ix2 r k)) = _
  have he : ((cfg0.win 0).blk t).view.emb (ix2 r k) = ix2 (rowOf t r) k := by
    funext d; apply Fin.ext
    match d with
    | ⟨0, _⟩ => show win0_0.index t (0 : Fin 2) * 64 + 1 * r.val = t.val * 64 + r.val; omega
    | ⟨1, _⟩ => show win0_0.index t (1 : Fin 2) * 20000 + 1 * k.val = k.val; omega
  rw [he]; exact Host.x1_at m c (rowOf t r) k

theorem acc1 (c : Dev nD) (t : Fin cfg0.N) (r : Fin 64) :
    (fun k : Fin 20000 => iblk m c 1 t (ix2 r k)) = fun k : Fin 20000 => (args m c).x2 (ix3 (rowOf t r) (0 : Fin 1) k) := by
  obtain ⟨f0, f1, f2, f3, f4, f5, f6, f7, f8, f9, f10, f11, f12, f13, f14, f15, f16, f17, f18, f19, f20, f21, f22, f23⟩ := idx_facts t
  funext k
  show (V m c main_v1 : S4096x20000.Idx → EReal) (((cfg0.win 1).blk t).view.emb (ix2 r k)) = _
  have he : ((cfg0.win 1).blk t).view.emb (ix2 r k) = ix2 (rowOf t r) k := by
    funext d; apply Fin.ext
    match d with
    | ⟨0, _⟩ => show win0_1.index t (0 : Fin 2) * 64 + 1 * r.val = t.val * 64 + r.val; omega
    | ⟨1, _⟩ => show win0_1.index t (1 : Fin 2) * 20000 + 1 * k.val = k.val; omega
  rw [he]; exact Host.x2_at m c (rowOf t r) k

theorem acc2 (c : Dev nD) (t : Fin cfg0.N) :
    (fun (o : Fin 128) (k : Fin 20000) => iblk m c 2 t (ix2 k o)) = fun (o : Fin 128) (k : Fin 20000) => (args m c).W1 (ix2 o (⟨k.val, by omega⟩ : Fin 40000)) := by
  obtain ⟨f0, f1, f2, f3, f4, f5, f6, f7, f8, f9, f10, f11, f12, f13, f14, f15, f16, f17, f18, f19, f20, f21, f22, f23⟩ := idx_facts t
  funext o k
  show (V m c main_v4 : S20000x128.Idx → EReal) (((cfg0.win 2).blk t).view.emb (ix2 k o)) = _
  have he : ((cfg0.win 2).blk t).view.emb (ix2 k o) = ix2 k o := by
    funext d; apply Fin.ext
    match d with
    | ⟨0, _⟩ => show win0_2.index t (0 : Fin 2) * 20000 + 1 * k.val = k.val; omega
    | ⟨1, _⟩ => show win0_2.index t (1 : Fin 2) * 128 + 1 * o.val = o.val; omega
  rw [he]; exact Host.w1a_at m c k o

theorem acc3 (c : Dev nD) (t : Fin cfg0.N) :
    (fun (o : Fin 128) (k : Fin 20000) => iblk m c 3 t (ix2 k o)) = fun (o : Fin 128) (k : Fin 20000) => (args m c).W1 (ix2 o (⟨20000 + k.val, by omega⟩ : Fin 40000)) := by
  obtain ⟨f0, f1, f2, f3, f4, f5, f6, f7, f8, f9, f10, f11, f12, f13, f14, f15, f16, f17, f18, f19, f20, f21, f22, f23⟩ := idx_facts t
  funext o k
  show (V m c main_v7 : S20000x128.Idx → EReal) (((cfg0.win 3).blk t).view.emb (ix2 k o)) = _
  have he : ((cfg0.win 3).blk t).view.emb (ix2 k o) = ix2 k o := by
    funext d; apply Fin.ext
    match d with
    | ⟨0, _⟩ => show win0_3.index t (0 : Fin 2) * 20000 + 1 * k.val = k.val; omega
    | ⟨1, _⟩ => show win0_3.index t (1 : Fin 2) * 128 + 1 * o.val = o.val; omega
  rw [he]; exact Host.w1b_at m c k o

theorem acc4 (c : Dev nD) (t : Fin cfg0.N) :
    (fun o : Fin 128 => iblk m c 4 t (ix2 (0 : Fin 1) o)) = fun o : Fin 128 => (args m c).b1 (ix1 o) := by
  obtain ⟨f0, f1, f2, f3, f4, f5, f6, f7, f8, f9, f10, f11, f12, f13, f14, f15, f16, f17, f18, f19, f20, f21, f22, f23⟩ := idx_facts t
  funext o
  show (V m c main_v14 : S1x128.Idx → EReal) (((cfg0.win 4).blk t).view.emb (ix2 (0 : Fin 1) o)) = _
  have he : ((cfg0.win 4).blk t).view.emb (ix2 (0 : Fin 1) o) = ix2 (0 : Fin 1) o := by
    funext d; apply Fin.ext
    match d with
    | ⟨0, _⟩ => show win0_4.index t (0 : Fin 2) * 1 + 1 * 0 = 0; omega
    | ⟨1, _⟩ => show win0_4.index t (1 : Fin 2) * 128 + 1 * o.val = o.val; omega
  rw [he]; exact Host.b1_at m c o

theorem acc5 (c : Dev nD) (t : Fin cfg0.N) :
    (fun (o : Fin 64) (k : Fin 128) => iblk m c 5 t (ix2 k o)) = fun (o : Fin 64) (k : Fin 128) => (args m c).W2 (ix2 o k) := by
  obtain ⟨f0, f1, f2, f3, f4, f5, f6, f7, f8, f9, f10, f11, f12, f13, f14, f15, f16, f17, f18, f19, f20, f21, f22, f23⟩ := idx_facts t
  funext o k
  show (V m c main_v9 : S128x64.Idx → EReal) (((cfg0.win 5).blk t).view.emb (ix2 k o)) = _
  have he : ((cfg0.win 5).blk t).view.emb (ix2 k o) = ix2 k o := by
    funext d; apply Fin.ext
    match d with
    | ⟨0, _⟩ => show win0_5.index t (0 : Fin 2) * 128 + 1 * k.val = k.val; omega
    | ⟨1, _⟩ => show win0_5.index t (1 : Fin 2) * 64 + 1 * o.val = o.val; omega
  rw [he]; exact Host.w2_at m c k o

theorem acc6 (c : Dev nD) (t : Fin cfg0.N) :
    (fun o : Fin 64 => iblk m c 6 t (ix2 (0 : Fin 1) o)) = fun o : Fin 64 => (args m c).b2 (ix1 o) := by
  obtain ⟨f0, f1, f2, f3, f4, f5, f6, f7, f8, f9, f10, f11, f12, f13, f14, f15, f16, f17, f18, f19, f20, f21, f22, f23⟩ := idx_facts t
  funext o
  show (V m c main_v15 : S1x64.Idx → EReal) (((cfg0.win 6).blk t).view.emb (ix2 (0 : Fin 1) o)) = _
  have he : ((cfg0.win 6).blk t).view.emb (ix2 (0 : Fin 1) o) = ix2 (0 : Fin 1) o := by
    funext d; apply Fin.ext
    match d with
    | ⟨0, _⟩ => show win0_6.index t (0 : Fin 2) * 1 + 1 * 0 = 0; omega
    | ⟨1, _⟩ => show win0_6.index t (1 : Fin 2) * 64 + 1 * o.val = o.val; omega
  rw [he]; exact Host.b2_at m c o

theorem acc7 (c : Dev nD) (t : Fin cfg0.N) :
    (fun (o : Fin 32) (k : Fin 64) => iblk m c 7 t (ix2 k o)) = fun (o : Fin 32) (k : Fin 64) => (args m c).W3 (ix2 o k) := by
  obtain ⟨f0, f1, f2, f3, f4, f5, f6, f7, f8, f9, f10, f11, f12, f13, f14, f15, f16, f17, f18, f19, f20, f21, f22, f23⟩ := idx_facts t
  funext o k
  show (V m c main_v11 : S64x32.Idx → EReal) (((cfg0.win 7).blk t).view.emb (ix2 k o)) = _
  have he : ((cfg0.win 7).blk t).view.emb (ix2 k o) = ix2 k o := by
    funext d; apply Fin.ext
    match d with
    | ⟨0, _⟩ => show win0_7.index t (0 : Fin 2) * 64 + 1 * k.val = k.val; omega
    | ⟨1, _⟩ => show win0_7.index t (1 : Fin 2) * 32 + 1 * o.val = o.val; omega
  rw [he]; exact Host.w3_at m c k o

theorem acc8 (c : Dev nD) (t : Fin cfg0.N) :
    (fun o : Fin 32 => iblk m c 8 t (ix2 (0 : Fin 1) o)) = fun o : Fin 32 => (args m c).b3 (ix1 o) := by
  obtain ⟨f0, f1, f2, f3, f4, f5, f6, f7, f8, f9, f10, f11, f12, f13, f14, f15, f16, f17, f18, f19, f20, f21, f22, f23⟩ := idx_facts t
  funext o
  show (V m c main_v16 : S1x32.Idx → EReal) (((cfg0.win 8).blk t).view.emb (ix2 (0 : Fin 1) o)) = _
  have he : ((cfg0.win 8).blk t).view.emb (ix2 (0 : Fin 1) o) = ix2 (0 : Fin 1) o := by
    funext d; apply Fin.ext
    match d with
    | ⟨0, _⟩ => show win0_8.index t (0 : Fin 2) * 1 + 1 * 0 = 0; omega
    | ⟨1, _⟩ => show win0_8.index t (1 : Fin 2) * 32 + 1 * o.val = o.val; omega
  rw [he]; exact Host.b3_at m c o

theorem acc9 (c : Dev nD) (t : Fin cfg0.N) :
    (fun (o : Fin 16) (k : Fin 32) => iblk m c 9 t (ix2 k o)) = fun (o : Fin 16) (k : Fin 32) => (args m c).W4 (ix2 o k) := by
  obtain ⟨f0, f1, f2, f3, f4, f5, f6, f7, f8, f9, f10, f11, f12, f13, f14, f15, f16, f17, f18, f19, f20, f21, f22, f23⟩ := idx_facts t
  funext o k
  show (V m c main_v13 : S32x16.Idx → EReal) (((cfg0.win 9).blk t).view.emb (ix2 k o)) = _
  have he : ((cfg0.win 9).blk t).view.emb (ix2 k o) = ix2 k o := by
    funext d; apply Fin.ext
    match d with
    | ⟨0, _⟩ => show win0_9.index t (0 : Fin 2) * 32 + 1 * k.val = k.val; omega
    | ⟨1, _⟩ => show win0_9.index t (1 : Fin 2) * 16 + 1 * o.val = o.val; omega
  rw [he]; exact Host.w4_at m c k o

theorem acc10 (c : Dev nD) (t : Fin cfg0.N) :
    (fun o : Fin 16 => iblk m c 10 t (ix2 (0 : Fin 1) o)) = fun o : Fin 16 => (args m c).b4 (ix1 o) := by
  obtain ⟨f0, f1, f2, f3, f4, f5, f6, f7, f8, f9, f10, f11, f12, f13, f14, f15, f16, f17, f18, f19, f20, f21, f22, f23⟩ := idx_facts t
  funext o
  show (V m c main_v17 : S1x16.Idx → EReal) (((cfg0.win 10).blk t).view.emb (ix2 (0 : Fin 1) o)) = _
  have he : ((cfg0.win 10).blk t).view.emb (ix2 (0 : Fin 1) o) = ix2 (0 : Fin 1) o := by
    funext d; apply Fin.ext
    match d with
    | ⟨0, _⟩ => show win0_10.index t (0 : Fin 2) * 1 + 1 * 0 = 0; omega
    | ⟨1, _⟩ => show win0_10.index t (1 : Fin 2) * 16 + 1 * o.val = o.val; omega
  rw [he]; exact Host.b4_at m c o

/-- Entry `(r, o)` of the output's block at point `t` is entry `(64 t + r, o)` of the output array. -/
theorem out_emb (t : Fin cfg0.N) (r : Fin 64) (o : Fin 16) :
    ((cfg0.win 11).blk t).view.emb (ix2 r o) = ix2 (rowOf t r) o := by
  obtain ⟨f0, f1, f2, f3, f4, f5, f6, f7, f8, f9, f10, f11, f12, f13, f14, f15, f16, f17, f18, f19, f20, f21, f22, f23⟩ := idx_facts t
  funext d; apply Fin.ext
  match d with
  | ⟨0, _⟩ => show win0_11.index t (0 : Fin 2) * 64 + 1 * r.val = t.val * 64 + r.val; omega
  | ⟨1, _⟩ => show win0_11.index t (1 : Fin 2) * 16 + 1 * o.val = o.val; omega

/-- The network on a staged row is the network on the corresponding row of the arguments. -/
theorem row_eq (hpay : PayloadRow) (c : Dev nD) (t : Fin cfg0.N) (r : Fin 64) (o : Fin 16) :
    k0_pay1 (F := Ideal) (k0_pay3 (k0_pay2 (iblk m c 0 t) (iblk m c 1 t) (iblk m c 2 t) (iblk m c 3 t) (iblk m c 4 t)) (iblk m c 5 t) (iblk m c 6 t) (iblk m c 7 t) (iblk m c 8 t))
        (k0_pay4 (k0_pay2 (iblk m c 0 t) (iblk m c 1 t) (iblk m c 2 t) (iblk m c 3 t) (iblk m c 4 t)) (iblk m c 5 t) (iblk m c 6 t) (iblk m c 7 t) (iblk m c 8 t))
        (Scalar.ofBits .f32 0x42000000#32) (iblk m c 9 t) (iblk m c 10 t) (ix2 r o)
      = Cert.MlpSpec.outRow (args m c) (rowOf t r) o := by
  rw [hpay (iblk m c 0 t) (iblk m c 1 t) (iblk m c 2 t) (iblk m c 3 t) (iblk m c 4 t) (iblk m c 5 t) (iblk m c 6 t) (iblk m c 7 t)
    (iblk m c 8 t) (iblk m c 9 t) (iblk m c 10 t) r o]
  rw [acc0 m c t r, acc1 m c t r, acc2 m c t, acc3 m c t, acc4 m c t, acc5 m c t, acc6 m c t, acc7 m c t, acc8 m c t, acc9 m c t, acc10 m c t]
  rfl

/-- WHAT POINT `t` WRITES BACK is block `t` of the network's output array. -/
theorem flushed_eq (hpay : PayloadRow) (c : Dev nD) (t : Fin cfg0.N) :
    (dats m 0 c).flushed 11 t = ((cfg0.win 11).blk t).view.read (Elt Ideal) (Garr m c) := by
  show (cfg0.win 11).cut (grid0.coords t) ((dats m 0 c).after 11 t) = _
  rw [after0_11]
  unfold out0_11
  rw [View.canon_unit_zero hz]
  simp only [View.ld_unit_zero (S := S64x20000) hz, View.ld_unit_zero (S := S20000x128) hz, View.ld_unit_zero (S := S1x128) hz,
    View.ld_unit_zero (S := S128x64) hz, View.ld_unit_zero (S := S1x64) hz, View.ld_unit_zero (S := S64x32) hz,
    View.ld_unit_zero (S := S1x32) hz, View.ld_unit_zero (S := S32x16) hz, View.ld_unit_zero (S := S1x16) hz]
  funext y
  obtain ⟨r, o, rfl⟩ : ∃ (r : Fin 64) (o : Fin 16), y = ix2 r o := ⟨y 0, y 1, eq_ix2 y⟩
  show k0_pay1 (F := Ideal) (k0_pay3 (k0_pay2 (iblk m c 0 t) (iblk m c 1 t) (iblk m c 2 t) (iblk m c 3 t) (iblk m c 4 t)) (iblk m c 5 t) (iblk m c 6 t) (iblk m c 7 t) (iblk m c 8 t))
        (k0_pay4 (k0_pay2 (iblk m c 0 t) (iblk m c 1 t) (iblk m c 2 t) (iblk m c 3 t) (iblk m c 4 t)) (iblk m c 5 t) (iblk m c 6 t) (iblk m c 7 t) (iblk m c 8 t))
        (Scalar.ofBits .f32 0x42000000#32) (iblk m c 9 t) (iblk m c 10 t) (ix2 r o)
      = Garr m c (((cfg0.win 11).blk t).view.emb (ix2 r o))
  rw [row_eq m hpay c t r o, out_emb t r o]
  rfl

/-- An index of the array is in point `t`'s block iff each coordinate is in the block's range on its axis. -/
theorem mem_blk (t : Fin cfg0.N) (i : S4096x16.Idx) :
    i ∈ ((cfg0.win 11).blk t).view.set ↔ ∀ a : Fin 2, win0_11.index t a * S64x16.size a ≤ (i a).val ∧ (i a).val < win0_11.index t a * S64x16.size a + S64x16.size a := by
  show i ∈ ((View.whole main_v18).slice (win0_11.rect t)).set ↔ _
  rw [View.set_slice_whole, Rect.mem_set_unit]
  exact Iff.rfl

/-- Every row of the array lies in the block of the point `row / 64`. -/
theorem cover (i : S4096x16.Idx) : ∃ t : Fin cfg0.N, (cfg0.win 11).flush t = true ∧ i ∈ ((cfg0.win 11).blk t).view.set := by
  have hi0 : (i 0).val < 4096 := (i 0).isLt
  have hi1 : (i 1).val < 16 := (i 1).isLt
  let t : Fin cfg0.N := ⟨(i 0).val / 64, by show (i 0).val / 64 < 64; omega⟩
  have htv : t.val = (i 0).val / 64 := rfl
  obtain ⟨f0, f1, f2, f3, f4, f5, f6, f7, f8, f9, f10, f11, f12, f13, f14, f15, f16, f17, f18, f19, f20, f21, f22, f23⟩ := idx_facts t
  refine ⟨t, flush0_11 t, ?_⟩
  rw [mem_blk]
  intro a
  match a with
  | ⟨0, _⟩ => show win0_11.index t (0 : Fin 2) * 64 ≤ (i 0).val ∧ (i 0).val < win0_11.index t (0 : Fin 2) * 64 + 64; omega
  | ⟨1, _⟩ => show win0_11.index t (1 : Fin 2) * 16 ≤ (i 1).val ∧ (i 1).val < win0_11.index t (1 : Fin 2) * 16 + 16; omega

/-- THE ARRAY after the run is the network's output, row by row. -/
theorem final (hpay : PayloadRow) (c : Dev nD) : (dats m 0 c).arrAt 11 cfg0.N = Garr m c :=
  (dats m 0 c).arrAt_eq_of_cover 11 (Garr m c) (fun t _ => flushed_eq m hpay c t) cover

/-- The reshape after the kernel: the program's result is the output array with a unit axis inserted. -/
theorem tail_eq (c : Dev nD) :
    Pipeline.afterTail₀ cfgs (dats m) 0 (V0 m) [hostOps1] c main_v19
      = shapeCast S4096x1x16 ((dats m 0 c).arrAt 11 cfg0.N) shapeCasts_S4096x16_S4096x1x16 := by
  unfold Pipeline.afterTail₀
  show StableHlo.after hostOps1 _ (Proc.devRef .tc main_v19) = _
  after_results
  funext i
  exact congrArg (fun A : S4096x16.Idx → EReal => shapeCast S4096x1x16 A shapeCasts_S4096x16_S4096x1x16 i)
    (Pipeline.withArrays_arr spec0 launch0.win.arr_inj c (V0 m c) (fun w => (dats m 0 c).arrAt w cfg0.N) 11)

/-- Entry `(r, 0, o)` of the reshaped output array is the specification's. -/
theorem reshaped (c : Dev nD) :
    shapeCast S4096x1x16 (Garr m c) shapeCasts_S4096x16_S4096x1x16 = Cert.MlpSpec.G (args m c) := by
  funext i
  obtain ⟨r, a, o, rfl⟩ : ∃ (r : Fin 4096) (a : Fin 1) (o : Fin 16), i = ix3 r a o := ⟨i 0, i 1, i 2, eq_ix3 i⟩
  obtain rfl : a = 0 := Subsingleton.elim _ _
  rw [shapeCast_apply (Garr m c) shapeCasts_S4096x16_S4096x1x16 (ix3 r (0 : Fin 1) o) (ix2 r o) (by
    rw [Shape.rowMajor_val_two, Shape.rowMajor_val_three]
    show r.val * 16 + o.val = (r.val * 1 + 0) * 16 + o.val
    omega)]
  rfl

/-- The program's result, from the frame run's post: the specification's array of the arguments. -/
theorem result_eq (hpay : PayloadRow) (c : Dev nD) :
    Pipeline.afterTail₀ cfgs (dats m) 0 (V0 m) [hostOps1] c main_v19 = Cert.MlpSpec.G (args m c) := by
  rw [tail_eq, final m hpay c, reshaped]

/-- The frame run re-posted: every weakly fair execution ends with the program's result at the specification's array of the
    arguments, and the arguments unchanged. -/
theorem run (hpay : PayloadRow) : θ_run defs (onTc (τ := τ) (main (F := Ideal))) ⟨m, fun _ => 0, ρ⟩ fun r => ∀ c : Dev nD,
      r.2.mem ((c.tc : Thread nD τ).loc main_v19) = Cert.MlpSpec.G (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v19 (Pipeline.mem_restRefs_of main_v19 (by decide) (by decide))).trans (result_eq m hpay c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Whole

end
-- ==== Proof.lean ====
/-
  The certificate of the four-layer perceptron kernel against its reference, on the extended reals.

  Both programs compute, for each of the 4096 rows of the two inputs, the same function of that row (`MlpSpec.rowOut`): an affine
  map of the row's 40000 features into 128, three times "normalise the row, rectify it, map it affinely" (to 64, 32 and 16
  features). The kernel holds the features as two halves and the first weight matrix as two transposed halves, so its first
  affine map is two sums over 20000 terms where the reference has one sum over 40000; a finite sum over `Fin (a + b)` is the sum
  over the first `a` indices plus the sum over the last `b`, and that is the only law that joins the two sides — no entry has to
  be finite for it, so the precondition is not used. Everything else is the same operation on both sides: the divisions by the
  row lengths, the reciprocal square root, the comparison with zero, the product with the slope, and every change of float
  format is the identity on the extended reals.

  The kernel's side: the body's arithmetic on one staged row (`Rows.payload_row`), the staged arrays as functions of the
  arguments (`Host`), the 64 blocks written back covering the result array, and the final reshape (`Whole.run`).
  The reference's side: its run (`ValueP.run`) and its stages read row by row (`Rows.result_eq`).
  The three frames are the generated frame certificates and the reference's run with the result dropped; the kernel's
  idealisation rewrote no operation, so there is nothing to preserve.
-/
import proofs.«107008_j48301202211328_2_alg».proof.Defs
import proofs.«107008_j48301202211328_2_alg».proof.Proof.Gen.Kernel
import proofs.«107008_j48301202211328_2_alg».proof.Proof.Gen.Kernel.Skeleton
import proofs.«107008_j48301202211328_2_alg».proof.Proof.Gen.Kernel.Launch
import proofs.«107008_j48301202211328_2_alg».proof.Proof.Gen.Kernel.Points
import proofs.«107008_j48301202211328_2_alg».proof.Proof.Gen.Kernel.Frame
import proofs.«107008_j48301202211328_2_alg».proof.Proof.Gen.KernelIdeal
import proofs.«107008_j48301202211328_2_alg».proof.Proof.Gen.KernelIdeal.Skeleton
import proofs.«107008_j48301202211328_2_alg».proof.Proof.Gen.KernelIdeal.Launch
import proofs.«107008_j48301202211328_2_alg».proof.Proof.Gen.KernelIdeal.Points
import proofs.«107008_j48301202211328_2_alg».proof.Proof.Gen.KernelIdeal.Frame
import proofs.«107008_j48301202211328_2_alg».proof.Proof.Gen.ReferenceIdeal
import proofs.«107008_j48301202211328_2_alg».proof.Proof.RefRead
import proofs.«107008_j48301202211328_2_alg».proof.Proof.RefRun
import proofs.«107008_j48301202211328_2_alg».proof.Proof.Gen.Pre_finite_inputs
import proofs.«107008_j48301202211328_2_alg».proof.Proof.MlpRows
import proofs.«107008_j48301202211328_2_alg».proof.Proof.MlpSpec
import proofs.«107008_j48301202211328_2_alg».proof.Proof.RefRows
import proofs.«107008_j48301202211328_2_alg».proof.Proof.KernelRows
import proofs.«107008_j48301202211328_2_alg».proof.Proof.KernelHost
import proofs.«107008_j48301202211328_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the specification's array of those arguments. -/
theorem algebraic : Cert.algebraic_KernelIdeal_ReferenceIdeal := by
  intro m ρ m' ρ' _ hagree
  refine ⟨fun c => Cert.MlpSpec.G (Cert.KernelIdeal.Whole.args m c),
    Cert.KernelIdeal.Whole.run m ρ Cert.KernelIdeal.Rows.payload_row, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  unfold Cert.ReferenceIdeal.ValueP.res_main_v85
  rw [Cert.ReferenceIdeal.Rows.result_eq, h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
